-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x2 : Shape := ⟨3, ![256, 2048, 2]⟩
abbrev S6000x128 : Shape := ⟨2, ![6000, 128]⟩
abbrev S6001x1 : Shape := ⟨2, ![6001, 1]⟩
abbrev S_ : Shape := ⟨0, ![]⟩

class Facts : Prop where
  bcast_S_S256x2048x2 : S_.BroadcastsInDim S256x2048x2 (![] : Fin 0 → Fin S256x2048x2.rank)
  reducesTo_S256x2048x2_S_d0_1_2 : S256x2048x2.ReducesTo [0, 1, 2] S_
  h_S_ : 0 < S_.numel
  bcast_S_S6000x128 : S_.BroadcastsInDim S6000x128 (![] : Fin 0 → Fin S6000x128.rank)
  reducesTo_S6000x128_S_d0_1 : S6000x128.ReducesTo [0, 1] S_
  bcast_S_S6001x1 : S_.BroadcastsInDim S6001x1 (![] : Fin 0 → Fin S6001x1.rank)
  reducesTo_S6001x1_S_d0_1 : S6001x1.ReducesTo [0, 1] S_

variable [Facts]

def fn {F : FTy → Type} [FloatOps F] (main_arg0 : FVec F S256x2048x2 .f32) (main_arg1 : FVec F S6000x128 .f32) (main_arg2 : FVec F S6001x1 .f32) : IVec S_ 1 :=
  let main_v0 : FVec F S256x2048x2 .f32 := Host.absf main_arg0
  let main_cst : FVec F S_ .f32 := constant S_ .f32 0x7F800000#32
  let main_v1 : FVec F S256x2048x2 .f32 := broadcastInDim S256x2048x2 ![] bcast_S_S256x2048x2 main_cst
  let main_v2 : IVec S256x2048x2 1 := cmpf .olt main_v0 main_v1
  let main_c : IVec S_ 1 := constantI S_ 1 1#1
  let main_v3 : IVec S_ 1 := (fun x v => Host.reduce IntOp.andi x v reducesTo_S256x2048x2_S_d0_1_2 h_S_) main_v2 main_c
  let main_v4 : FVec F S6000x128 .f32 := Host.absf main_arg1
  let main_cst_0 : FVec F S_ .f32 := constant S_ .f32 0x7F800000#32
  let main_v5 : FVec F S6000x128 .f32 := broadcastInDim S6000x128 ![] bcast_S_S6000x128 main_cst_0
  let main_v6 : IVec S6000x128 1 := cmpf .olt main_v4 main_v5
  let main_c_1 : IVec S_ 1 := constantI S_ 1 1#1
  let main_v7 : IVec S_ 1 := (fun x v => Host.reduce IntOp.andi x v reducesTo_S6000x128_S_d0_1 h_S_) main_v6 main_c_1
  let main_v8 : IVec S_ 1 := andi main_v3 main_v7
  let main_v9 : FVec F S6001x1 .f32 := Host.absf main_arg2
  let main_cst_2 : FVec F S_ .f32 := constant S_ .f32 0x7F800000#32
  let main_v10 : FVec F S6001x1 .f32 := broadcastInDim S6001x1 ![] bcast_S_S6001x1 main_cst_2
  let main_v11 : IVec S6001x1 1 := cmpf .olt main_v9 main_v10
  let main_c_3 : IVec S_ 1 := constantI S_ 1 1#1
  let main_v12 : IVec S_ 1 := (fun x v => Host.reduce IntOp.andi x v reducesTo_S6001x1_S_d0_1 h_S_) main_v11 main_c_3
  let main_v13 : IVec S_ 1 := andi main_v8 main_v12
  main_v13
-- ==== Kernel.lean ====
abbrev S256x2048x2 : Shape := ⟨3, ![256, 2048, 2]⟩
abbrev S6000x128 : Shape := ⟨2, ![6000, 128]⟩
abbrev S6001x1 : Shape := ⟨2, ![6001, 1]⟩
abbrev S256x2048x1 : Shape := ⟨3, ![256, 2048, 1]⟩
abbrev S256x2048 : Shape := ⟨2, ![256, 2048]⟩
abbrev S_ : Shape := ⟨0, ![]⟩
abbrev S256x2048x128 : Shape := ⟨3, ![256, 2048, 128]⟩
abbrev S256x48x128 : Shape := ⟨3, ![256, 48, 128]⟩
abbrev S32x512x128 : Shape := ⟨3, ![32, 512, 128]⟩
abbrev S32x512 : Shape := ⟨2, ![32, 512]⟩
abbrev S32x48x128 : Shape := ⟨3, ![32, 48, 128]⟩
abbrev S32x48 : Shape := ⟨2, ![32, 48]⟩
abbrev S32x512x48 : Shape := ⟨3, ![32, 512, 48]⟩
abbrev S32x512x1 : Shape := ⟨3, ![32, 512, 1]⟩
abbrev S32x48x1 : Shape := ⟨3, ![32, 48, 1]⟩

abbrev nBuf : Space → Nat
  | .hbm => 40
  | .vmem => 8
  | .smem => 0
  | _ => 0

abbrev bufTy : (tb : Table) → Fin (tcTables nBuf tb) → BufTy
  | .hbm, ⟨0, _⟩ => ⟨S256x2048x2, .f32⟩
  | .hbm, ⟨1, _⟩ => ⟨S6000x128, .f32⟩
  | .hbm, ⟨2, _⟩ => ⟨S6001x1, .f32⟩
  | .hbm, ⟨3, _⟩ => ⟨S256x2048x1, .f32⟩
  | .hbm, ⟨4, _⟩ => ⟨S256x2048, .f32⟩
  | .hbm, ⟨5, _⟩ => ⟨S256x2048x1, .f32⟩
  | .hbm, ⟨6, _⟩ => ⟨S256x2048, .f32⟩
  | .hbm, ⟨7, _⟩ => ⟨S256x2048, .i32⟩
  | .hbm, ⟨8, _⟩ => ⟨S_, .i32⟩
  | .hbm, ⟨9, _⟩ => ⟨S256x2048, .i32⟩
  | .hbm, ⟨10, _⟩ => ⟨S256x2048, .i1⟩
  | .hbm, ⟨11, _⟩ => ⟨S_, .i32⟩
  | .hbm, ⟨12, _⟩ => ⟨S256x2048, .i32⟩
  | .hbm, ⟨13, _⟩ => ⟨S256x2048, .i32⟩
  | .hbm, ⟨14, _⟩ => ⟨S256x2048, .i32⟩
  | .hbm, ⟨15, _⟩ => ⟨S256x2048x1, .i32⟩
  | .hbm, ⟨16, _⟩ => ⟨S256x2048x128, .f32⟩
  | .hbm, ⟨17, _⟩ => ⟨S_, .i32⟩
  | .hbm, ⟨18, _⟩ => ⟨S256x2048, .i32⟩
  | .hbm, ⟨19, _⟩ => ⟨S256x2048, .i1⟩
  | .hbm, ⟨20, _⟩ => ⟨S_, .i32⟩
  | .hbm, ⟨21, _⟩ => ⟨S256x2048, .i32⟩
  | .hbm, ⟨22, _⟩ => ⟨S256x2048, .i32⟩
  | .hbm, ⟨23, _⟩ => ⟨S256x2048, .i32⟩
  | .hbm, ⟨24, _⟩ => ⟨S256x2048x1, .i32⟩
  | .hbm, ⟨25, _⟩ => ⟨S256x2048x1, .f32⟩
  | .hbm, ⟨26, _⟩ => ⟨S256x2048x1, .f32⟩
  | .hbm, ⟨27, _⟩ => ⟨S256x2048x128, .f32⟩
  | .hbm, ⟨28, _⟩ => ⟨S256x2048x128, .f32⟩
  | .hbm, ⟨29, _⟩ => ⟨S256x2048, .f32⟩
  | .hbm, ⟨30, _⟩ => ⟨S256x2048, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S256x2048, .i32⟩
  | .hbm, ⟨35, _⟩ => ⟨S256x2048, .i32⟩
  | .hbm, ⟨36, _⟩ => ⟨S_, .i32⟩
  | .hbm, ⟨37, _⟩ => ⟨S256x2048, .i32⟩
  | .hbm, ⟨38, _⟩ => ⟨S256x2048, .i32⟩
  | .hbm, ⟨39, _⟩ => ⟨S256x48x128, .f32⟩
  | .local _ .vmem, ⟨0, _⟩ => ⟨S32x512x128, .f32⟩
  | .local _ .vmem, ⟨1, _⟩ => ⟨S32x512x128, .f32⟩
  | .local _ .vmem, ⟨2, _⟩ => ⟨S32x512, .i32⟩
  | .local _ .vmem, ⟨3, _⟩ => ⟨S32x512, .i32⟩
  | .local _ .vmem, ⟨4, _⟩ => ⟨S32x48x128, .f32⟩
  | .local _ .vmem, ⟨5, _⟩ => ⟨S32x48x128, .f32⟩
  | .local _ .vmem, ⟨6, _⟩ => ⟨S32x48x128, .f32⟩
  | .local _ .vmem, ⟨7, _⟩ => ⟨S32x48, .f32⟩
  | _, _ => ⟨S256x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x48x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S256x2048x2_S256x2048x1_0_0_0 : S256x2048x2.Slices ![0, 0, 0] S256x2048x1
  shapeCasts_S256x2048x1_S256x2048 : S256x2048x1.ShapeCasts S256x2048
  slices_S256x2048x2_S256x2048x1_0_0_1 : S256x2048x2.Slices ![0, 0, 1] S256x2048x1
  bcast_S_S256x2048 : S_.BroadcastsInDim S256x2048 (![] : Fin 0 → Fin S256x2048.rank)
  bcast_S256x2048_S256x2048x1_0_1 : S256x2048.BroadcastsInDim S256x2048x1 (![0, 1] : Fin 2 → Fin S256x2048x1.rank)
  bcast_S256x2048x1_S256x2048x128_0_1_2 : S256x2048x1.BroadcastsInDim S256x2048x128 (![0, 1, 2] : Fin 3 → Fin S256x2048x128.rank)
  inb_S32x48x128_S32x48x128_0_0_0 : ∀ a, (![0, 0, 0] : Fin 3 → Nat) a + S32x48x128.size a ≤ S32x48x128.size a
  h_S32x48x128 : 0 < S32x48x128.numel
  shapeCasts_S32x48x128_S32x48x128 : S32x48x128.ShapeCasts S32x48x128
  inb_S32x48_S32x48_0_0 : ∀ a, (![0, 0] : Fin 2 → Nat) a + S32x48.size a ≤ S32x48.size a
  h_S32x48 : 0 < S32x48.numel
  shapeCasts_S32x48_S32x48 : S32x48.ShapeCasts S32x48
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x512x128_S32x512x128_0_0_0 : ∀ a, (![0, 0, 0] : Fin 3 → Nat) a + S32x512x128.size a ≤ S32x512x128.size a
  h_S32x512x128 : 0 < S32x512x128.numel
  shapeCasts_S32x512x128_S32x512x128 : S32x512x128.ShapeCasts S32x512x128
  iota_S32x512x48_d2_w32 : S32x512x48.Iotas .tc 32 [2]
  shapeCasts_S32x512_S32x512x1 : S32x512.ShapeCasts S32x512x1
  broadcasts_S32x512x1_S32x512x48 : S32x512x1.Broadcasts S32x512x48
  natLt_1_32 : 1 < 32
  bitsLt_bf16_f32 : FTy.bits .bf16 < FTy.bits .f32
  reduces_S32x512x48_S32x48 : S32x512x48.Reduces [1] S32x48
  shapeCasts_S32x48_S32x48x1 : S32x48.ShapeCasts S32x48x1
  broadcasts_S32x48x1_S32x48x128 : S32x48x1.Broadcasts S32x48x128
  gather_S6000x128_S256x2048x1_S256x2048x128_2_0_n_n_0_2_1128_wf : GatherDims.WF S6000x128 S256x2048x1 S256x2048x128 [2] [0] [] [0] [] 2 ![1, 128]
  gather_S6001x1_S256x2048x1_S256x2048x1_2_0_n_n_0_2_11_wf : GatherDims.WF S6001x1 S256x2048x1 S256x2048x1 [2] [0] [] [0] [] 2 ![1, 1]
  dot_S32x512x48_S32x512x128_S32x48x128_1_1_2_2_0_0_wf : DotDims.WF S32x512x48 S32x512x128 S32x48x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x128.size a ≤ S256x2048x128.size a
  hwx0_0 : ∀ i : grid0.Coords, EltTy.bits .f32 = 32 ∨ (Rect.block (s := S256x2048x128) S32x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x2048.size a
  hwx0_1 : ∀ i : grid0.Coords, EltTy.bits .i32 = 32 ∨ (Rect.block (s := S256x2048) S32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x48x128.size a ≤ S256x48x128.size a
  hwx0_2 : ∀ i : grid0.Coords, EltTy.bits .f32 = 32 ∨ (Rect.block (s := S256x48x128) S32x48x128.size (cc0_transform_2 i) (hinb0_2 i)).WholeWords (EltTy.packing .f32)

variable [Facts₀]

def gather_S6000x128_S256x2048x1_S256x2048x128_2_0_n_n_0_2_1128 : GatherDims S6000x128 S256x2048x1 S256x2048x128 where
  offsetDims := [2]
  collapsedSliceDims := [0]
  operandBatchingDims := []
  startIndicesBatchingDims := []
  startIndexMap := [0]
  indexVectorDim := 2
  sliceSizes := ![1, 128]
  wf := gather_S6000x128_S256x2048x1_S256x2048x128_2_0_n_n_0_2_1128_wf
def gather_S6001x1_S256x2048x1_S256x2048x1_2_0_n_n_0_2_11 : GatherDims S6001x1 S256x2048x1 S256x2048x1 where
  offsetDims := [2]
  collapsedSliceDims := [0]
  operandBatchingDims := []
  startIndicesBatchingDims := []
  startIndexMap := [0]
  indexVectorDim := 2
  sliceSizes := ![1, 1]
  wf := gather_S6001x1_S256x2048x1_S256x2048x1_2_0_n_n_0_2_11_wf
def dot_S32x512x48_S32x512x128_S32x48x128_1_1_2_2_0_0 : DotDims S32x512x48 S32x512x128 S32x48x128 where
  lhsContracting := [1]
  rhsContracting := [1]
  lhsNonContracting := [2]
  rhsNonContracting := [2]
  lhsBatch := [0]
  rhsBatch := [0]
  wf := dot_S32x512x48_S32x512x128_S32x48x128_1_1_2_2_0_0_wf

abbrev win0_0 : Pipeline.Window sig grid0 :=
  Pipeline.Window.ofSpec (Memref.whole main_v21) S32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x48x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x2048x2 : Shape := ⟨3, ![256, 2048, 2]⟩
abbrev S6000x128 : Shape := ⟨2, ![6000, 128]⟩
abbrev S6001x1 : Shape := ⟨2, ![6001, 1]⟩
abbrev S256x2048x1 : Shape := ⟨3, ![256, 2048, 1]⟩
abbrev S256x2048 : Shape := ⟨2, ![256, 2048]⟩
abbrev S_ : Shape := ⟨0, ![]⟩
abbrev S256x2048x128 : Shape := ⟨3, ![256, 2048, 128]⟩
abbrev S524288x128 : Shape := ⟨2, ![524288, 128]⟩
abbrev S256 : Shape := ⟨1, ![256]⟩
abbrev S256x1 : Shape := ⟨2, ![256, 1]⟩
abbrev S524288 : Shape := ⟨1, ![524288]⟩
abbrev S12288x128 : Shape := ⟨2, ![12288, 128]⟩
abbrev S524288x1 : Shape := ⟨2, ![524288, 1]⟩
abbrev S12288 : Shape := ⟨1, ![12288]⟩
abbrev S12288x1 : Shape := ⟨2, ![12288, 1]⟩
abbrev S256x48x128 : Shape := ⟨3, ![256, 48, 128]⟩

abbrev nBuf : Space → Nat
  | .hbm => 65
  | .vmem => 0
  | .smem => 0
  | _ => 0

abbrev bufTy : (tb : Table) → Fin (tcTables nBuf tb) → BufTy
  | .hbm, ⟨0, _⟩ => ⟨S256x2048x2, .f32⟩
  | .hbm, ⟨1, _⟩ => ⟨S6000x128, .f32⟩
  | .hbm, ⟨2, _⟩ => ⟨S6001x1, .f32⟩
  | .hbm, ⟨3, _⟩ => ⟨S256x2048x1, .f32⟩
  | .hbm, ⟨4, _⟩ => ⟨S256x2048, .f32⟩
  | .hbm, ⟨5, _⟩ => ⟨S256x2048x1, .f32⟩
  | .hbm, ⟨6, _⟩ => ⟨S256x2048, .f32⟩
  | .hbm, ⟨7, _⟩ => ⟨S256x2048, .i32⟩
  | .hbm, ⟨8, _⟩ => ⟨S_, .i32⟩
  | .hbm, ⟨9, _⟩ => ⟨S256x2048, .i32⟩
  | .hbm, ⟨10, _⟩ => ⟨S256x2048, .i1⟩
  | .hbm, ⟨11, _⟩ => ⟨S_, .i32⟩
  | .hbm, ⟨12, _⟩ => ⟨S256x2048, .i32⟩
  | .hbm, ⟨13, _⟩ => ⟨S256x2048, .i32⟩
  | .hbm, ⟨14, _⟩ => ⟨S256x2048, .i32⟩
  | .hbm, ⟨15, _⟩ => ⟨S256x2048x1, .i32⟩
  | .hbm, ⟨16, _⟩ => ⟨S256x2048x128, .f32⟩
  | .hbm, ⟨17, _⟩ => ⟨S_, .i32⟩
  | .hbm, ⟨18, _⟩ => ⟨S256x2048, .i32⟩
  | .hbm, ⟨19, _⟩ => ⟨S256x2048, .i1⟩
  | .hbm, ⟨20, _⟩ => ⟨S_, .i32⟩
  | .hbm, ⟨21, _⟩ => ⟨S256x2048, .i32⟩
  | .hbm, ⟨22, _⟩ => ⟨S256x2048, .i32⟩
  | .hbm, ⟨23, _⟩ => ⟨S256x2048, .i32⟩
  | .hbm, ⟨24, _⟩ => ⟨S256x2048x1, .i32⟩
  | .hbm, ⟨25, _⟩ => ⟨S256x2048x1, .f32⟩
  | .hbm, ⟨26, _⟩ => ⟨S256x2048x1, .f32⟩
  | .hbm, ⟨27, _⟩ => ⟨S256x2048x128, .f32⟩
  | .hbm, ⟨28, _⟩ => ⟨S256x2048x128, .f32⟩
  | .hbm, ⟨29, _⟩ => ⟨S524288x128, .f32⟩
  | .hbm, ⟨30, _⟩ => ⟨S256x2048, .f32⟩
  | .hbm, ⟨31, _⟩ => ⟨S256x2048, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S256x2048, .i32⟩
  | .hbm, ⟨36, _⟩ => ⟨S256x2048, .i32⟩
  | .hbm, ⟨37, _⟩ => ⟨S_, .i32⟩
  | .hbm, ⟨38, _⟩ => ⟨S256x2048, .i32⟩
  | .hbm, ⟨39, _⟩ => ⟨S256x2048, .i32⟩
  | .hbm, ⟨40, _⟩ => ⟨S256, .i32⟩
  | .hbm, ⟨41, _⟩ => ⟨S256x1, .i32⟩
  | .hbm, ⟨42, _⟩ => ⟨S_, .i32⟩
  | .hbm, ⟨43, _⟩ => ⟨S256x1, .i32⟩
  | .hbm, ⟨44, _⟩ => ⟨S256x1, .i32⟩
  | .hbm, ⟨45, _⟩ => ⟨S256x2048, .i32⟩
  | .hbm, ⟨46, _⟩ => ⟨S256x2048, .i32⟩
  | .hbm, ⟨47, _⟩ => ⟨S524288, .i32⟩
  | .hbm, ⟨48, _⟩ => ⟨S_, .f32⟩
  | .hbm, ⟨49, _⟩ => ⟨S12288x128, .f32⟩
  | .hbm, ⟨50, _⟩ => ⟨S524288x1, .i32⟩
  | .hbm, ⟨51, _⟩ => ⟨S12288x128, .f32⟩
  | .hbm, ⟨52, _⟩ => ⟨S_, .f32⟩
  | .hbm, ⟨53, _⟩ => ⟨S524288, .f32⟩
  | .hbm, ⟨54, _⟩ => ⟨S_, .f32⟩
  | .hbm, ⟨55, _⟩ => ⟨S12288, .f32⟩
  | .hbm, ⟨56, _⟩ => ⟨S524288x1, .i32⟩
  | .hbm, ⟨57, _⟩ => ⟨S12288, .f32⟩
  | .hbm, ⟨58, _⟩ => ⟨S12288x1, .f32⟩
  | .hbm, ⟨59, _⟩ => ⟨S_, .f32⟩
  | .hbm, ⟨60, _⟩ => ⟨S12288x1, .f32⟩
  | .hbm, ⟨61, _⟩ => ⟨S12288x1, .f32⟩
  | .hbm, ⟨62, _⟩ => ⟨S12288x128, .f32⟩
  | .hbm, ⟨63, _⟩ => ⟨S12288x128, .f32⟩
  | .hbm, ⟨64, _⟩ => ⟨S256x48x128, .f32⟩
  | _, _ => ⟨S256x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S256x2048x2_S256x2048x1_0_0_0 : S256x2048x2.Slices ![0, 0, 0] S256x2048x1
  shapeCasts_S256x2048x1_S256x2048 : S256x2048x1.ShapeCasts S256x2048
  slices_S256x2048x2_S256x2048x1_0_0_1 : S256x2048x2.Slices ![0, 0, 1] S256x2048x1
  bcast_S_S256x2048 : S_.BroadcastsInDim S256x2048 (![] : Fin 0 → Fin S256x2048.rank)
  bcast_S256x2048_S256x2048x1_0_1 : S256x2048.BroadcastsInDim S256x2048x1 (![0, 1] : Fin 2 → Fin S256x2048x1.rank)
  bcast_S256x2048x1_S256x2048x128_0_1_2 : S256x2048x1.BroadcastsInDim S256x2048x128 (![0, 1, 2] : Fin 3 → Fin S256x2048x128.rank)
  shapeCasts_S256x2048x128_S524288x128 : S256x2048x128.ShapeCasts S524288x128
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  shapeCasts_S256x2048_S524288 : S256x2048.ShapeCasts S524288
  bcast_S_S12288x128 : S_.BroadcastsInDim S12288x128 (![] : Fin 0 → Fin S12288x128.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S12288 : S_.BroadcastsInDim S12288 (![] : Fin 0 → Fin S12288.rank)
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S12288x1_S12288x128_0_1 : S12288x1.BroadcastsInDim S12288x128 (![0, 1] : Fin 2 → Fin S12288x128.rank)
  shapeCasts_S12288x128_S256x48x128 : S12288x128.ShapeCasts S256x48x128
  gather_S6000x128_S256x2048x1_S256x2048x128_2_0_n_n_0_2_1128_wf : GatherDims.WF S6000x128 S256x2048x1 S256x2048x128 [2] [0] [] [0] [] 2 ![1, 128]
  gather_S6001x1_S256x2048x1_S256x2048x1_2_0_n_n_0_2_11_wf : GatherDims.WF S6001x1 S256x2048x1 S256x2048x1 [2] [0] [] [0] [] 2 ![1, 1]
  scatter_S12288x128_S524288x1_S524288x128_1_0_0_1_wf : ScatterDims.WF S12288x128 S524288x1 S524288x128 [1] [0] [0] 1
  scatter_S12288_S524288x1_S524288_n_0_0_1_wf : ScatterDims.WF S12288 S524288x1 S524288 [] [0] [0] 1

variable [Facts₀]

def gather_S6000x128_S256x2048x1_S256x2048x128_2_0_n_n_0_2_1128 : GatherDims S6000x128 S256x2048x1 S256x2048x128 where
  offsetDims := [2]
  collapsedSliceDims := [0]
  operandBatchingDims := []
  startIndicesBatchingDims := []
  startIndexMap := [0]
  indexVectorDim := 2
  sliceSizes := ![1, 128]
  wf := gather_S6000x128_S256x2048x1_S256x2048x128_2_0_n_n_0_2_1128_wf
def gather_S6001x1_S256x2048x1_S256x2048x1_2_0_n_n_0_2_11 : GatherDims S6001x1 S256x2048x1 S256x2048x1 where
  offsetDims := [2]
  collapsedSliceDims := [0]
  operandBatchingDims := []
  startIndicesBatchingDims := []
  startIndexMap := [0]
  indexVectorDim := 2
  sliceSizes := ![1, 1]
  wf := gather_S6001x1_S256x2048x1_S256x2048x1_2_0_n_n_0_2_11_wf
def scatter_S12288x128_S524288x1_S524288x128_1_0_0_1 : ScatterDims S12288x128 S524288x1 S524288x128 where
  updateWindowDims := [1]
  insertedWindowDims := [0]
  scatterDimsToOperandDims := [0]
  indexVectorDim := 1
  wf := scatter_S12288x128_S524288x1_S524288x128_1_0_0_1_wf
def scatter_S12288_S524288x1_S524288_n_0_0_1 : ScatterDims S12288 S524288x1 S524288 where
  updateWindowDims := []
  insertedWindowDims := [0]
  scatterDimsToOperandDims := [0]
  indexVectorDim := 1
  wf := scatter_S12288_S524288x1_S524288_n_0_0_1_wf

class Facts : Prop extends Facts₀ where

variable [Facts]
-- ==== Proof.Pieces.lean ====
/- What one grid point's body leaves in the two carried accumulators and in the output block, as values.
   The grid is 8 row blocks × 4 event chunks. At the first chunk of a row block the two accumulators (the running
   per-bin sums, [32, 48, 128], and the running per-bin counts, [32, 48]) are reset to zero before the chunk is added;
   at every chunk each accumulator becomes (what it held) + (the chunk's contribution), a pure function of the
   chunk's bin words and values; at the last chunk the output block is the quotient of the two accumulators as they
   stand after that chunk. Each statement reads back the stores the body made, last first: every store covers
   its whole buffer, so what is left is the last store's value, whose loads read the buffers as they then stood. -/
import proofs.«143032_j68109591380517_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A middle point: both accumulators take the point's block on top of what they held -/

theorem acc_mid (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : ¬cond0_0 i) (hc1 : ¬cond0_1 i) (x0 : Vec F S32x512x128 .f32) (x1 : Vec F S32x512 .i32) (xs0 : Vec F S32x48x128 .f32) (xs1 : Vec F S32x48 .f32) :
    sout0_B_0 c i a2 h2 a3 h3 a4 h4 a5 h5 a6 h6 hc0 hc1 x0 x1 xs0 xs1 = k0_pay4 x1 x0 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  rw [View.canon_unit_zero hz3]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

theorem cnt_mid (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : ¬cond0_0 i) (hc1 : ¬cond0_1 i) (x0 : Vec F S32x512x128 .f32) (x1 : Vec F S32x512 .i32) (xs0 : Vec F S32x48x128 .f32) (xs1 : Vec F S32x48 .f32) :
    sout0_B_1 c i a2 h2 a3 h3 a4 h4 a5 h5 a6 h6 hc0 hc1 x0 x1 xs0 xs1 = k0_pay5 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  rw [View.canon_unit_zero hz2]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

/-! ## The last point of a row block: the accumulators likewise, and the output block is their quotient -/

theorem acc_last (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : ¬cond0_0 i) (hc1 : cond0_1 i) (x0 : Vec F S32x512x128 .f32) (x1 : Vec F S32x512 .i32) (xs0 : Vec F S32x48x128 .f32) (xs1 : Vec F S32x48 .f32) :
    sout0_C_0 c i a2 h2 a3 h3 a4 h4 a5 h5 a6 h6 hc0 hc1 x0 x1 xs0 xs1 = k0_pay4 x1 x0 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz3]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

theorem cnt_last (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : ¬cond0_0 i) (hc1 : cond0_1 i) (x0 : Vec F S32x512x128 .f32) (x1 : Vec F S32x512 .i32) (xs0 : Vec F S32x48x128 .f32) (xs1 : Vec F S32x48 .f32) :
    sout0_C_1 c i a2 h2 a3 h3 a4 h4 a5 h5 a6 h6 hc0 hc1 x0 x1 xs0 xs1 = k0_pay5 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

theorem out_last (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : ¬cond0_0 i) (hc1 : cond0_1 i) (x0 : Vec F S32x512x128 .f32) (x1 : Vec F S32x512 .i32) (xs0 : Vec F S32x48x128 .f32) (xs1 : Vec F S32x48 .f32) :
    out0_C_2 c i a2 h2 a3 h3 a4 h4 a5 h5 a6 h6 hc0 hc1 x0 x1 xs0 xs1 = k0_pay6 (k0_pay5 x1 xs1) (k0_pay4 x1 x0 xs0) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz3, View.readCov_unit_zero (S := S32x48) _ hz2, View.readCov_unit_zero (S := S32x48x128) _ hz3]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

/-! ## The first point of a row block: the accumulators are reset to zero first -/

theorem acc_first (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : cond0_0 i) (hc1 : ¬cond0_1 i) (x0 : Vec F S32x512x128 .f32) (x1 : Vec F S32x512 .i32) :
    sout0_A_0 c i a2 h2 a3 h3 a4 h4 a5 h5 a6 h6 hc0 hc1 x0 x1 = k0_pay4 x1 x0 k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S32x48x128) hz3, View.readCov_unit_zero (S := S32x48x128) _ hz3]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

theorem cnt_first (c : Dev nD) (i : grid0.Coords) (a2 : Memref sig .tc .vmem S32x512x128 .f32) (h2 : a2.IsWhole) (a3 : Memref sig .tc .vmem S32x512 .i32) (h3 : a3.IsWhole) (a4 : Memref sig .tc .vmem S32x48x128 .f32) (h4 : a4.IsWhole) (a5 : Memref sig .tc .vmem S32x48x128 .f32) (h5 : a5.IsWhole) (a6 : Memref sig .tc .vmem S32x48 .f32) (h6 : a6.IsWhole) (hc0 : cond0_0 i) (hc1 : ¬cond0_1 i) (x0 : Vec F S32x512x128 .f32) (x1 : Vec F S32x512 .i32) :
    sout0_A_1 c i a2 h2 a3 h3 a4 h4 a5 h5 a6 h6 hc0 hc1 x0 x1 = k0_pay5 x1 k0_pay2 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S32x48) hz2, View.readCov_unit_zero (S := S32x48) _ hz2]
  simp only [View.readAt_eq_ld, h2.read_unread, h3.read_unread, h4.read_unread, h5.read_unread, h6.read_unread, View.ld_unit_zero (S := S32x512x128) hz3, View.ld_unit_zero (S := S32x48x128) hz3, View.ld_unit_zero (S := S32x512) hz2, View.ld_unit_zero (S := S32x48) hz2]

end Cert.KernelIdeal.HistValue

end
-- ==== Proof.Spec.lean ====
/- The binned average, as one function of the event stream and the bin table.
   There are 256 rows of 2048 events. Event (b, l) carries a 128-vector vals(b, l, ·) and a bin word bins(b, l).
   For a row b, a bin t < 48 and a lane d, the result is the sum of vals(b, l, d) over the events l of row b whose
   bin word is t, divided by (the number of those events + a small positive constant). Sums over the extended
   reals: an event outside the bin contributes 0, so nothing here needs the entries to be finite. -/
import Idealize.ShloMosaic.Lib.ValueIdx
import Idealize.ShloMosaic.PureOps.Ideal.Laws

noncomputable section

open scoped BigOperators

namespace Cert.Hist

open Idealize.ShloMosaic Idealize.ShloMosaic.ValueIdx

/-- The event stream's shape, the bin table's, and the result's. -/
abbrev SVals : Shape := ⟨3, ![256, 2048, 128]⟩
abbrev SBins : Shape := ⟨2, ![256, 2048]⟩
abbrev SOut : Shape := ⟨3, ![256, 48, 128]⟩

/-- The small positive constant added to a count before the division (the f32 nearest to 1e-6, as both programs write it). -/
def eps : EReal := Ideal.ofBits .f32 0x358637BD#32

/-- Bin t as a 32-bit word. -/
def binWord (t : Fin 48) : BitVec 32 := BitVec.ofNat 32 t.val

/-- The sum over the events of row b that fall in bin t, lane d. -/
def binSum (vals : SVals.Idx → EReal) (bins : SBins.Idx → BitVec 32) (b : Fin 256) (t : Fin 48) (d : Fin 128) : EReal :=
  ∑ l : Fin 2048, if bins (ix2 b l) = binWord t then vals (ix3 b l d) else 0

/-- The number of events of row b that fall in bin t. -/
def binCount (bins : SBins.Idx → BitVec 32) (b : Fin 256) (t : Fin 48) : EReal :=
  ∑ l : Fin 2048, if bins (ix2 b l) = binWord t then (1 : EReal) else 0

/-- The binned average. -/
def hist (vals : SVals.Idx → EReal) (bins : SBins.Idx → BitVec 32) : SOut.Idx → EReal := fun i =>
  Ideal.div (binSum vals bins (i 0) (i 1) (i 2)) (binCount bins (i 0) (i 1) + eps)

theorem hist_apply (vals : SVals.Idx → EReal) (bins : SBins.Idx → BitVec 32) (b : Fin 256) (t : Fin 48) (d : Fin 128) :
    hist vals bins (ix3 b t d) = Ideal.div (binSum vals bins b t d) (binCount bins b t + eps) := rfl

end Cert.Hist

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.Payloads.lean ====
/-
  The kernel body's pure values, read at an index. Per grid point the body holds a block of 32 rows of 512 events: a
  bin word per event and a 128-vector of values per event. It forms the 0/1 mask "event (p, l) falls in bin t" by
  comparing the event's bin word with the word of t, adds to the sum accumulator the product of the mask with the values
  contracted over the events of a row, adds to the count accumulator the mask summed over the events of a row, and at
  the last point divides the accumulated sum by the accumulated count plus a small constant. Each lemma below reads one
  of these values at explicit coordinates as a plain expression over the extended reals: a reset is 0, an accumulator
  update is the old value plus a sum over the 512 events of the block's row, the output is the quotient.
-/
import proofs.«143032_j68109591380517_1_alg».proof.Proof.Gen.KernelIdeal.Skeleton
import proofs.«143032_j68109591380517_1_alg».proof.Proof.Spec
import proofs.«143032_j68109591380517_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout: a trailing unit axis added by a cast, and spread over the lanes by a broadcast -/

/-- An `[a, b]` array cast to `[a, b, 1]` reads, at `(i, j, u)`, the array at `(i, j)`, whatever the unit
    coordinate `u`: both positions are `i * b + j` in row-major order. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the array at `(p, q, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The two together: an `[a, b]` array given a trailing unit axis and spread over `c` lanes reads, at `(p, q, r)`,
    the array at `(p, q)`. -/
theorem trailing_spread_apply {α : Type} {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ x hc) hb (ix3 p q r) = x (ix2 p q) :=
  (broadcastTo_ab1_abc_apply _ hb p q r).trans (shapeCast_ab_ab1_apply x hc p q 0)

/-! ## The mask -/

/-- The number a comparison's bit counts for: the bit of "a = b", widened to a word and read as a signed integer, is
    1 when the two words are equal and 0 when they are not. -/
theorem maskAt (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · have hb : (a == b) = true := by simpa using h
    rw [hb, if_pos h]
    have h1 : ((BitVec.ofBool true).setWidth 32).toInt = 1 := by decide
    rw [h1]; norm_num
  · have hb : (a == b) = false := by simpa using h
    rw [hb, if_neg h]
    have h0 : ((BitVec.ofBool false).setWidth 32).toInt = 0 := by decide
    rw [h0]; norm_num

/-- The comparison word at event `(p, l)` and bin `t`: the event's bin word against the word of `t`. -/
theorem pay3_apply (v3 : Vec Ideal S32x512 .i32) (p : Fin 32) (l : Fin 512) (t : Fin 48) :
    k0_pay3 (F := Ideal) v3 (ix3 p l t) = IntOp.cmpi .eq (v3 (ix2 p l)) (Cert.Hist.binWord t) := by
  unfold k0_pay3
  show IntOp.cmpi .eq
      (broadcastTo S32x512x48 (shapeCast S32x512x1 (shapeCast S32x512 v3 _) _) _ (ix3 p l t))
      (iota .tc S32x512x48 32 [2] _ (ix3 p l t)) = _
  rw [trailing_spread_apply, shapeCast_self, iota_single_apply]
  rfl

/-! ## The two accumulator resets and the final division -/

/-- The sum accumulator's reset value is 0 everywhere. -/
theorem pay1_apply (i : S32x48x128.Idx) : k0_pay1 (F := Ideal) i = 0 := by
  unfold k0_pay1
  rw [shapeCast_self]
  exact Ideal.ofBits_zero_f32

/-- The count accumulator's reset value is 0 everywhere. -/
theorem pay2_apply (i : S32x48.Idx) : k0_pay2 (F := Ideal) i = 0 := by
  unfold k0_pay2
  rw [shapeCast_self]
  exact Ideal.ofBits_zero_f32

/-- The output at `(p, t, d)`: the accumulated sum there over the accumulated count of `(p, t)` plus the small
    constant; the count is given a trailing unit axis and spread over the 128 lanes. -/
theorem pay6_apply (v32 : Vec Ideal S32x48 .f32) (v35 : Vec Ideal S32x48x128 .f32) (p : Fin 32) (t : Fin 48) (d : Fin 128) :
    k0_pay6 (F := Ideal) v32 v35 (ix3 p t d) = Ideal.div (v35 (ix3 p t d)) (v32 (ix2 p t) + Cert.Hist.eps) := by
  unfold k0_pay6
  show Ideal.div (v35 (ix3 p t d))
      (broadcastTo S32x48x128 (shapeCast S32x48x1 (addf (F := Ideal) v32 (broadcast S32x48 (Scalar.ofBits (F := Ideal) .f32 0x358637BD#32))) _) _
        (ix3 p t d)) = _
  rw [trailing_spread_apply]
  rfl

/-! ## The lane count -/

/-- A one-axis reduction of `[a, b, c]` along axis 1 visits, for the result index `(p, t)` and coordinate `k` of the
    reduced axis, the source index `(p, k, t)`. -/
theorem lift_axis1_of3 {a b c : ℕ} (h : (⟨3, ![a, b, c]⟩ : Shape).Reduces [1] ⟨2, ![a, c]⟩) (p : Fin a) (t : Fin c) (k : Fin b) :
    h.lift (ix2 p t) k = ix3 p k t :=
  funext fun x => Fin.ext (by match x with | ⟨0, _⟩ => rfl | ⟨1, _⟩ => rfl | ⟨2, _⟩ => rfl)

/-- The mask entry at `(p, l, t)`: 1 when event `(p, l)` falls in bin `t`, else 0. -/
theorem mask_apply (v3 : Vec Ideal S32x512 .i32) (p : Fin 32) (l : Fin 512) (t : Fin 48) :
    (sitofp (F := Ideal) .f32 (extui 32 (k0_pay3 (F := Ideal) v3) natLt_1_32) : FVec Ideal S32x512x48 .f32) (ix3 p l t)
      = if v3 (ix2 p l) = Cert.Hist.binWord t then (1 : EReal) else 0 := by
  show FloatOps.sitofp (F := Ideal) .f32 ((k0_pay3 (F := Ideal) v3 (ix3 p l t)).setWidth 32) = _
  rw [pay3_apply]
  exact maskAt _ _

/-- The count accumulator after a grid point: what it held plus the number of the block's events of row `p` that fall
    in bin `t`. -/
theorem pay5_apply (v3 : Vec Ideal S32x512 .i32) (v24 : Vec Ideal S32x48 .f32) (p : Fin 32) (t : Fin 48) :
    k0_pay5 (F := Ideal) v3 v24 (ix2 p t)
      = v24 (ix2 p t) + ∑ l : Fin 512, (if v3 (ix2 p l) = Cert.Hist.binWord t then (1 : EReal) else 0) := by
  unfold k0_pay5
  rw [shapeCast_self]
  show v24 (ix2 p t) + multiReduction (F := Ideal) .add [1] S32x48
      (sitofp .f32 (extui 32 (k0_pay3 (F := Ideal) v3) natLt_1_32)) 0x00000000#32 reduces_S32x512x48_S32x48 _ _ (ix2 p t) = _
  refine congrArg (v24 (ix2 p t) + ·) ?_
  refine (Ideal.multiReduction_add_single _ _ reduces_S32x512x48_S32x48 _ _ (ix2 p t)).trans ?_
  show ∑ l : Fin 512, _ = _
  refine Finset.sum_congr rfl fun l _ => ?_
  rw [lift_axis1_of3]
  exact mask_apply v3 p l t

/-! ## The binned sum -/

/-- The block product's dimension numbers: batch axis 0, contraction along axis 1 of both operands. -/
abbrev D := dot_S32x512x48_S32x512x128_S32x48x128_1_1_2_2_0_0

/-- The mask's index the product reads at output `(p, t, d)` and contraction coordinate `l`: `(p, l, t)`. -/
theorem lhsIdx_eq (p : Fin 32) (t : Fin 48) (d : Fin 128) (l : Fin 512) :
    D.lhsIdx (ix3 p t d) ((contrEquiv1 D 512 rfl rfl).symm l) = ix3 p l t := by
  funext a
  apply Fin.ext
  match a with
  | ⟨0, _⟩ => rfl
  | ⟨1, _⟩ =>
    exact (D.lhsIdx_val_of_single (cl := 1) rfl _ _).trans (contrEquiv1_symm_val D 512 rfl rfl l)
  | ⟨2, _⟩ => rfl

/-- The values' index the product reads there: `(p, l, d)`. -/
theorem rhsIdx_eq (p : Fin 32) (t : Fin 48) (d : Fin 128) (l : Fin 512) :
    D.rhsIdx (ix3 p t d) ((contrEquiv1 D 512 rfl rfl).symm l) = ix3 p l d := by
  funext a
  apply Fin.ext
  match a with
  | ⟨0, _⟩ => rfl
  | ⟨1, _⟩ =>
    exact (D.rhsIdx_val_of_single (cr := 1) rfl _ _).trans (contrEquiv1_symm_val D 512 rfl rfl l)
  | ⟨2, _⟩ => rfl

/-- The sum accumulator after a grid point: what it held plus, at lane `d`, the sum of the values of the block's
    events of row `p` that fall in bin `t`. A mask entry is 0 or 1, and in the extended reals `0 * x = 0` and
    `1 * x = x` for every `x`, so no entry needs to be finite. -/
theorem pay4_apply (v3 : Vec Ideal S32x512 .i32) (v5 : Vec Ideal S32x512x128 .f32) (v19 : Vec Ideal S32x48x128 .f32)
    (p : Fin 32) (t : Fin 48) (d : Fin 128) :
    k0_pay4 (F := Ideal) v3 v5 v19 (ix3 p t d)
      = v19 (ix3 p t d) + ∑ l : Fin 512, (if v3 (ix2 p l) = Cert.Hist.binWord t then v5 (ix3 p l d) else 0) := by
  unfold k0_pay4
  simp only [shapeCast_self]
  show v19 (ix3 p t d) + FloatOps.matmul (F := Ideal) D none
      (truncf (F := Ideal) .bf16 (sitofp (F := Ideal) .f32 (extui 32 (k0_pay3 (F := Ideal) v3) natLt_1_32)) bitsLt_bf16_f32)
      (truncf (F := Ideal) .bf16 v5 bitsLt_bf16_f32) (constant (F := Ideal) S32x48x128 .f32 0x00000000#32) (ix3 p t d) = _
  refine congrArg (v19 (ix3 p t d) + ·) ?_
  refine (Ideal.matmul_constant_zero_apply D none _ _ (ix3 p t d)).trans ?_
  rw [← Equiv.sum_comp (contrEquiv1 D 512 rfl rfl).symm]
  refine Finset.sum_congr rfl fun l _ => ?_
  rw [lhsIdx_eq, rhsIdx_eq]
  show (sitofp (F := Ideal) .f32 (extui 32 (k0_pay3 (F := Ideal) v3) natLt_1_32) : FVec Ideal S32x512x48 .f32) (ix3 p l t)
      * v5 (ix3 p l d) = _
  rw [mask_apply]
  split
  · exact one_mul _
  · exact zero_mul _

end Cert.KernelIdeal.Pay

end
-- ==== Proof.Tiling.lean ====
/- The binned sums, chunk by chunk. The kernel walks a grid of 8 row blocks × 4 event chunks: point n = 4·q + s
   handles rows 32·q … 32·q + 31 and events 512·s … 512·s + 511. The contribution of point n to the sum of bin t at row
   p of its block, lane d, is the sum over the chunk's 512 events; the four chunks of a row block partition its 2048
   events, so the four contributions add up to the whole row's binned sum (and likewise for the counts). Only
   commutativity and associativity of + on the extended reals are used. -/
import proofs.«143032_j68109591380517_1_alg».proof.Proof.Spec

noncomputable section

open scoped BigOperators

namespace Cert.Hist

open Idealize.ShloMosaic Idealize.ShloMosaic.ValueIdx

/-- The row of the event stream that row p of point n's block is (total in n: the residue mod 256 is the row itself
    for a point of the grid). -/
def rowOf (n : ℕ) (p : Fin 32) : Fin 256 := ⟨(32 * (n / 4) + p.val) % 256, Nat.mod_lt _ (by norm_num)⟩

/-- The event that event l of point n's chunk is. -/
def evOf (n : ℕ) (l : Fin 512) : Fin 2048 :=
  ⟨512 * (n % 4) + l.val, by have h1 := l.isLt; have h2 : n % 4 < 4 := Nat.mod_lt n (by norm_num); omega⟩

theorem rowOf_val (n : ℕ) (hn : n < 32) (p : Fin 32) : (rowOf n p).val = 32 * (n / 4) + p.val := by
  have hp := p.isLt
  show (32 * (n / 4) + p.val) % 256 = _
  exact Nat.mod_eq_of_lt (by omega)

theorem rowOf_chunk (q s : ℕ) (hs : s < 4) (p : Fin 32) : rowOf (4 * q + s) p = rowOf (4 * q) p := by
  apply Fin.ext
  show (32 * ((4 * q + s) / 4) + p.val) % 256 = (32 * ((4 * q) / 4) + p.val) % 256
  have e1 : (4 * q + s) / 4 = q := by omega
  have e2 : (4 * q) / 4 = q := by omega
  rw [e1, e2]

theorem evOf_chunk_val (q s : ℕ) (hs : s < 4) (l : Fin 512) : (evOf (4 * q + s) l).val = 512 * s + l.val := by
  show 512 * ((4 * q + s) % 4) + l.val = _
  have e1 : (4 * q + s) % 4 = s := by omega
  rw [e1]

/-- Point n's contribution to the sum of bin t at row p of its block, lane d. -/
def chunkSum (vals : SVals.Idx → EReal) (bins : SBins.Idx → BitVec 32) (n : ℕ) (p : Fin 32) (t : Fin 48) (d : Fin 128) : EReal :=
  ∑ l : Fin 512, if bins (ix2 (rowOf n p) (evOf n l)) = binWord t then vals (ix3 (rowOf n p) (evOf n l) d) else 0

/-- Point n's contribution to the count of bin t at row p of its block. -/
def chunkCount (bins : SBins.Idx → BitVec 32) (n : ℕ) (p : Fin 32) (t : Fin 48) : EReal :=
  ∑ l : Fin 512, if bins (ix2 (rowOf n p) (evOf n l)) = binWord t then (1 : EReal) else 0

/-- A sum over the 2048 events is the sum over the four chunks of the sums over each chunk's 512 events. -/
theorem sum_chunks {M : Type*} [AddCommMonoid M] (q : ℕ) (f : Fin 2048 → M) :
    ∑ s ∈ Finset.range 4, ∑ l : Fin 512, f (evOf (4 * q + s) l) = ∑ l : Fin 2048, f l := by
  have h1 : ∑ l : Fin 2048, f l = ∑ x : Fin 4 × Fin 512, f (finProdFinEquiv x) :=
    (Equiv.sum_comp (finProdFinEquiv (m := 4) (n := 512)) f).symm
  rw [h1, Fintype.sum_prod_type, Finset.sum_range]
  refine Finset.sum_congr rfl fun s _ => Finset.sum_congr rfl fun l _ => ?_
  congr 1
  apply Fin.ext
  rw [evOf_chunk_val q s.val s.isLt l]
  show 512 * s.val + l.val = l.val + 512 * s.val
  omega

/-- The four chunk contributions of a row block add up to the row's binned sum. -/
theorem chunkSum_total (vals : SVals.Idx → EReal) (bins : SBins.Idx → BitVec 32) (q : ℕ) (p : Fin 32) (t : Fin 48) (d : Fin 128) :
    ∑ s ∈ Finset.range (3 + 1), chunkSum vals bins (4 * q + s) p t d = binSum vals bins (rowOf (4 * q) p) t d := by
  have e : ∀ s ∈ Finset.range (3 + 1), chunkSum vals bins (4 * q + s) p t d
      = ∑ l : Fin 512, (fun l' : Fin 2048 => if bins (ix2 (rowOf (4 * q) p) l') = binWord t then vals (ix3 (rowOf (4 * q) p) l' d) else 0) (evOf (4 * q + s) l) := by
    intro s hs
    have hs' : s < 4 := Finset.mem_range.mp hs
    unfold chunkSum
    rw [rowOf_chunk q s hs' p]
  rw [Finset.sum_congr rfl e]
  exact sum_chunks (M := EReal) q
    (fun l' : Fin 2048 => if bins (ix2 (rowOf (4 * q) p) l') = binWord t then vals (ix3 (rowOf (4 * q) p) l' d) else 0)

/-- The four chunk counts of a row block add up to the row's bin count. -/
theorem chunkCount_total (bins : SBins.Idx → BitVec 32) (q : ℕ) (p : Fin 32) (t : Fin 48) :
    ∑ s ∈ Finset.range (3 + 1), chunkCount bins (4 * q + s) p t = binCount bins (rowOf (4 * q) p) t := by
  have e : ∀ s ∈ Finset.range (3 + 1), chunkCount bins (4 * q + s) p t
      = ∑ l : Fin 512, (fun l' : Fin 2048 => if bins (ix2 (rowOf (4 * q) p) l') = binWord t then (1 : EReal) else 0) (evOf (4 * q + s) l) := by
    intro s hs
    have hs' : s < 4 := Finset.mem_range.mp hs
    unfold chunkCount
    rw [rowOf_chunk q s hs' p]
  rw [Finset.sum_congr rfl e]
  exact sum_chunks (M := EReal) q
    (fun l' : Fin 2048 => if bins (ix2 (rowOf (4 * q) p) l') = binWord t then (1 : EReal) else 0)

end Cert.Hist

end
-- ==== Proof.Blocks.lean ====
/-
  The grid's blocks, read by coordinates. The kernel walks a grid of 8 row blocks × 4 event chunks, point t = 4·q + s
  at row block q and chunk s. Its block of values is rows 32·q … 32·q + 31 and events 512·s … 512·s + 511 of the event
  stream, its block of bin words the same rows and events of the bin table, its output block rows 32·q … 32·q + 31 of
  the result, written back at the last chunk of each row block (s = 3). Below: the block indices decided over the 32
  points; each block's element at explicit coordinates as the array's element at the row and event those coordinates
  name; and the fact that every index of the result lies in the output block of a point that writes back.
-/
import proofs.«143032_j68109591380517_1_alg».proof.Proof.Gen.KernelIdeal.Value
import proofs.«143032_j68109591380517_1_alg».proof.Proof.Tiling

noncomputable section

namespace Cert.KernelIdeal.HistValue

open Cert.KernelIdeal Cert.KernelIdeal.Gen Cert.Hist Idealize.ShloMosaic Idealize.ShloMosaic.ValueIdx
open Idealize.ShloMosaic.Pipeline (Dat)

variable {F : FTy → Type} [FloatOps F]
variable (m : (ℓ : Loc nD τ sig) → Buf (Elt F) ℓ)

/-- The printed index maps, decided over the 32 grid points: point `t` reads row block `t / 4` and event chunk `t % 4`
    of the values and of the bin words, and its output block is row block `t / 4`. -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = t.val / 4 ∧ win0_1.index t (1 : Fin 2) = t.val % 4
    ∧ win0_2.index t (0 : Fin 3) = t.val / 4 ∧ win0_2.index t (1 : Fin 3) = 0 ∧ win0_2.index t (2 : Fin 3) = 0 :=
  (by decide +kernel : ∀ t : Fin grid0.N, _)

/-- Where element `(p, l, d)` of point `t`'s block of values sits in the event stream: a block's coordinate is the
    block index times the block size plus the coordinate inside the block. -/
theorem vblk_emb (t : Fin cfg0.N) (p : Fin 32) (l : Fin 512) (d : Fin 128) :
    ((cfg0.win 0).blk t).view.emb (ix3 p l d) = (ix3 (rowOf t.val p) (evOf t.val l) d : S256x2048x128.Idx) := by
  obtain ⟨e0, e1, e2, -, -, -, -, -⟩ := idx_facts t
  have hN : t.val < 32 := lt_of_lt_of_eq t.isLt (show cfg0.N = 32 from N_0)
  have hr := rowOf_val t.val hN p
  funext a; apply Fin.ext
  match a with
  | ⟨0, _⟩ =>
    show win0_0.index t (0 : Fin 3) * 32 + 1 * p.val = (rowOf t.val p).val
    omega
  | ⟨1, _⟩ =>
    show win0_0.index t (1 : Fin 3) * 512 + 1 * l.val = 512 * (t.val % 4) + l.val
    omega
  | ⟨2, _⟩ =>
    show win0_0.index t (2 : Fin 3) * 128 + 1 * d.val = d.val
    omega

/-- Element `(p, l, d)` of point `t`'s block of values is the event stream's entry at row `rowOf t p`, event
    `evOf t l`, lane `d`, as the region finds the array. -/
theorem vblk_apply (c : Dev nD) (t : Fin cfg0.N) (p : Fin 32) (l : Fin 512) (d : Fin 128) :
    (iblk m c 0 t : Vec F S32x512x128 .f32) (ix3 p l d)
      = (V m c main_v21 : S256x2048x128.Idx → Elt F .f32) (ix3 (rowOf t.val p) (evOf t.val l) d) := by
  unfold iblk
  rw [View.read_apply]
  show V m c main_v21 (((cfg0.win 0).blk t).view.emb (ix3 p l d)) = _
  rw [vblk_emb]

/-- Where element `(p, l)` of point `t`'s block of bin words sits in the bin table. -/
theorem bblk_emb (t : Fin cfg0.N) (p : Fin 32) (l : Fin 512) :
    ((cfg0.win 1).blk t).view.emb (ix2 p l) = (ix2 (rowOf t.val p) (evOf t.val l) : S256x2048.Idx) := by
  obtain ⟨-, -, -, e3, e4, -, -, -⟩ := idx_facts t
  have hN : t.val < 32 := lt_of_lt_of_eq t.isLt (show cfg0.N = 32 from N_0)
  have hr := rowOf_val t.val hN p
  funext a; apply Fin.ext
  match a with
  | ⟨0, _⟩ =>
    show win0_1.index t (0 : Fin 2) * 32 + 1 * p.val = (rowOf t.val p).val
    omega
  | ⟨1, _⟩ =>
    show win0_1.index t (1 : Fin 2) * 512 + 1 * l.val = 512 * (t.val % 4) + l.val
    omega

/-- Element `(p, l)` of point `t`'s block of bin words is the bin table's entry at row `rowOf t p`, event `evOf t l`. -/
theorem bblk_apply (c : Dev nD) (t : Fin cfg0.N) (p : Fin 32) (l : Fin 512) :
    (iblk m c 1 t : Vec F S32x512 .i32) (ix2 p l)
      = (V m c main_v24 : S256x2048.Idx → Elt F .i32) (ix2 (rowOf t.val p) (evOf t.val l)) := by
  unfold iblk
  rw [View.read_apply]
  show V m c main_v24 (((cfg0.win 1).blk t).view.emb (ix2 p l)) = _
  rw [bblk_emb]

/-- Where element `(p, tt, d)` of point `t`'s output block sits in the result: row `rowOf t p`, the same bin and lane. -/
theorem oblk_emb (t : Fin cfg0.N) (p : Fin 32) (tt : Fin 48) (d : Fin 128) :
    ((cfg0.win 2).blk t).view.emb (ix3 p tt d) = (ix3 (rowOf t.val p) tt d : S256x48x128.Idx) := by
  obtain ⟨-, -, -, -, -, e5, e6, e7⟩ := idx_facts t
  have hN : t.val < 32 := lt_of_lt_of_eq t.isLt (show cfg0.N = 32 from N_0)
  have hr := rowOf_val t.val hN p
  funext a; apply Fin.ext
  match a with
  | ⟨0, _⟩ =>
    show win0_2.index t (0 : Fin 3) * 32 + 1 * p.val = (rowOf t.val p).val
    omega
  | ⟨1, _⟩ =>
    show win0_2.index t (1 : Fin 3) * 48 + 1 * tt.val = tt.val
    omega
  | ⟨2, _⟩ =>
    show win0_2.index t (2 : Fin 3) * 128 + 1 * d.val = d.val
    omega

/-- An index of the result is in point `t`'s output block iff each coordinate is in the block's range on its axis. -/
theorem mem_blk2 (t : Fin cfg0.N) (i : S256x48x128.Idx) :
    i ∈ ((cfg0.win 2).blk t).view.set ↔ ∀ a : Fin 3, win0_2.index t a * S32x48x128.size a ≤ (i a).val
      ∧ (i a).val < win0_2.index t a * S32x48x128.size a + S32x48x128.size a := by
  show i ∈ ((View.whole main_v25).slice (win0_2.rect t)).set ↔ _
  rw [View.set_slice_whole, Rect.mem_set_unit]
  exact Iff.rfl

/-- Every index of the result is in the output block of a point that writes its block back: for row `r`, the last
    point of row block `r / 32`. -/
theorem cover (i : S256x48x128.Idx) :
    ∃ t : Fin cfg0.N, (cfg0.win 2).flush t = true ∧ i ∈ ((cfg0.win 2).blk t).view.set := by
  have hi0 : (i 0).val < 256 := (i 0).isLt
  have hi1 : (i 1).val < 48 := (i 1).isLt
  have hi2 : (i 2).val < 128 := (i 2).isLt
  have hN : cfg0.N = 32 := N_0
  have hlt : 4 * ((i 0).val / 32) + 3 < cfg0.N := by rw [hN]; omega
  obtain ⟨-, -, -, -, -, e5, e6, e7⟩ := idx_facts ⟨4 * ((i 0).val / 32) + 3, hlt⟩
  refine ⟨⟨4 * ((i 0).val / 32) + 3, hlt⟩, (flush0_2 _).mpr (by show (4 * ((i 0).val / 32) + 3) % 4 = 3; omega), ?_⟩
  rw [mem_blk2]
  intro a
  match a with
  | ⟨0, _⟩ =>
    show win0_2.index ⟨4 * ((i 0).val / 32) + 3, hlt⟩ (0 : Fin 3) * 32 ≤ (i 0).val
      ∧ (i 0).val < win0_2.index ⟨4 * ((i 0).val / 32) + 3, hlt⟩ (0 : Fin 3) * 32 + 32
    rw [e5]
    show (4 * ((i 0).val / 32) + 3) / 4 * 32 ≤ (i 0).val ∧ (i 0).val < (4 * ((i 0).val / 32) + 3) / 4 * 32 + 32
    omega
  | ⟨1, _⟩ =>
    show win0_2.index ⟨4 * ((i 0).val / 32) + 3, hlt⟩ (1 : Fin 3) * 48 ≤ (i 1).val
      ∧ (i 1).val < win0_2.index ⟨4 * ((i 0).val / 32) + 3, hlt⟩ (1 : Fin 3) * 48 + 48
    rw [e6]
    omega
  | ⟨2, _⟩ =>
    show win0_2.index ⟨4 * ((i 0).val / 32) + 3, hlt⟩ (2 : Fin 3) * 128 ≤ (i 2).val
      ∧ (i 2).val < win0_2.index ⟨4 * ((i 0).val / 32) + 3, hlt⟩ (2 : Fin 3) * 128 + 128
    rw [e7]
    omega

end Cert.KernelIdeal.HistValue

end
-- ==== Proof.KernelHist.lean ====
/- The kernel's result array, as one function of the two arrays its launch finds.
   The launch walks 8 row blocks × 4 event chunks. Two accumulators live across the four chunks of a row block: the
   per-bin sums [32, 48, 128] and the per-bin counts [32, 48]. At the block's first chunk they are reset to zero; each
   chunk adds, for every row p of the block and bin t, the chunk's events of bin t (their values, lane by lane, and
   their number); after the fourth chunk the output block is sums / (counts + the small constant), and only then is
   it written back. A chunk's one-hot matrix product is the sum over the chunk's events of (1 if the event's bin is t
   else 0) · value, and 0 · x = 0, 1 · x = x for every extended real, so the product is the plain sum of the values of
   the events in the bin. The four chunks partition a row's 2048 events, so after the fourth the accumulators hold the
   whole row's binned sum and count; the eight writing points' blocks tile the result array. -/
import proofs.«143032_j68109591380517_1_alg».proof.Proof.Gen.KernelIdeal.Value
import proofs.«143032_j68109591380517_1_alg».proof.Proof.Pieces
import proofs.«143032_j68109591380517_1_alg».proof.Proof.Payloads
import proofs.«143032_j68109591380517_1_alg».proof.Proof.Tiling
import proofs.«143032_j68109591380517_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen Cert.Hist Cert.KernelIdeal.Pay

/-- The first point of a row block and any point of it: the same row block. -/
theorem rowOf_base (n : ℕ) (p : Fin 32) : rowOf (4 * (n / 4)) p = rowOf n p := by
  apply Fin.ext
  show (32 * ((4 * (n / 4)) / 4) + p.val) % 256 = (32 * (n / 4) + p.val) % 256
  have e : (4 * (n / 4)) / 4 = n / 4 := by omega
  rw [e]

/-! ## One point's step of each accumulator, at an index (over any blocks that read the two arrays where point n's do) -/

/-- The sums' accumulator after a point, at (p, t, d): what it held there plus the point's contribution. -/
theorem acc_step (x1 : Vec Ideal S32x512 .i32) (x0 : Vec Ideal S32x512x128 .f32) (acc : Vec Ideal S32x48x128 .f32)
    (valsF : SVals.Idx → EReal) (binsF : SBins.Idx → BitVec 32) (n : ℕ) (p : Fin 32) (tt : Fin 48) (d : Fin 128)
    (hb : ∀ l : Fin 512, x1 (ix2 p l) = binsF (ix2 (rowOf n p) (evOf n l)))
    (hv : ∀ l : Fin 512, x0 (ix3 p l d) = valsF (ix3 (rowOf n p) (evOf n l) d)) :
    k0_pay4 (F := Ideal) x1 x0 acc (ix3 p tt d) = acc (ix3 p tt d) + chunkSum valsF binsF n p tt d := by
  rw [pay4_apply x1 x0 acc p tt d]
  congr 1
  unfold chunkSum
  refine Finset.sum_congr rfl fun l _ => ?_
  rw [hb l, hv l]

/-- The counts' accumulator after a point, at (p, t): what it held there plus the point's count. -/
theorem cnt_step (x1 : Vec Ideal S32x512 .i32) (acc : Vec Ideal S32x48 .f32)
    (binsF : SBins.Idx → BitVec 32) (n : ℕ) (p : Fin 32) (tt : Fin 48)
    (hb : ∀ l : Fin 512, x1 (ix2 p l) = binsF (ix2 (rowOf n p) (evOf n l))) :
    k0_pay5 (F := Ideal) x1 acc (ix2 p tt) = acc (ix2 p tt) + chunkCount binsF n p tt := by
  rw [pay5_apply x1 acc p tt]
  congr 1
  unfold chunkCount
  refine Finset.sum_congr rfl fun l _ => ?_
  rw [hb l]

variable (m : (ℓ : Loc nD τ sig) → Buf (Elt Ideal) ℓ) (ρ : Dev nD → PrngReg)

/-- The event stream and the bin words as the kernel's launch finds them. -/
def vals (c : Dev nD) : SVals.Idx → EReal := V m c main_v21
def bins (c : Dev nD) : SBins.Idx → BitVec 32 := V m c main_v24

theorem bblk (c : Dev nD) (t : Fin cfg0.N) (p : Fin 32) (l : Fin 512) :
    (iblk m c 1 t : Vec Ideal S32x512 .i32) (ix2 p l) = bins m c (ix2 (rowOf t.val p) (evOf t.val l)) :=
  bblk_apply m c t p l

theorem vblk (c : Dev nD) (t : Fin cfg0.N) (p : Fin 32) (l : Fin 512) (d : Fin 128) :
    (iblk m c 0 t : Vec Ideal S32x512x128 .f32) (ix3 p l d) = vals m c (ix3 (rowOf t.val p) (evOf t.val l) d) :=
  vblk_apply m c t p l d

/-! ## The accumulators after the last chunk of a row block -/

/-- After the last chunk of a row block the sums' accumulator holds, at (p, t, d), the whole row's binned sum: reset
    to zero at the block's first point, it has taken the four chunks' contributions in turn. -/
theorem acc_at_last (c : Dev nD) (t : Fin cfg0.N) (h3 : t.val % 4 = 3) (p : Fin 32) (tt : Fin 48) (d : Fin 128) :
    (outsAt0 m c t.val t.isLt).2.1 (ix3 p tt d) = binSum (vals m c) (bins m c) (rowOf t.val p) tt d := by
  have hN : t.val < 32 := lt_of_lt_of_eq t.isLt N_0
  have hb : 4 * (t.val / 4) + t.val % 4 < cfg0.N := by have h2 := Nat.div_add_mod t.val 4; have h1 := t.isLt; omega
  have key := Pipeline.accAt_add_apply (N := cfg0.N) (ι := S32x48x128.Idx) (β := EReal)
    (fun n h => Cert.KernelIdeal.Value.scAt0_0 m c n h (VS0_0.read (Elt Ideal) VS0_0.junk)) (Cert.KernelIdeal.Value.scAt0_0 m c)
    (fun _ => 0) (fun n i => chunkSum (vals m c) (bins m c) n (i 0) (i 1) (i 2)) (4 * (t.val / 4)) 3
    (by
      intro h i
      obtain ⟨p', t', d', rfl⟩ : ∃ (p' : Fin 32) (t' : Fin 48) (d' : Fin 128), i = ix3 p' t' d' := ⟨i 0, i 1, i 2, eq_ix3 i⟩
      have h0 : (4 * (t.val / 4)) % 4 = 0 := by omega
      have h1 : ¬ (4 * (t.val / 4)) % 4 = 3 := by omega
      unfold Cert.KernelIdeal.Value.scAt0_0
      rw [dif_pos h0, dif_neg h1, acc_first]
      refine (acc_step (iblk m c 1 ⟨4 * (t.val / 4), h⟩) (iblk m c 0 ⟨4 * (t.val / 4), h⟩) (k0_pay1 (F := Ideal)) (vals m c) (bins m c) (4 * (t.val / 4)) p' t' d'
        (fun l => bblk m c ⟨4 * (t.val / 4), h⟩ p' l) (fun l => vblk m c ⟨4 * (t.val / 4), h⟩ p' l d')).trans ?_
      rw [pay1_apply])
    (by
      intro n h acc i hlo hhi
      obtain ⟨p', t', d', rfl⟩ : ∃ (p' : Fin 32) (t' : Fin 48) (d' : Fin 128), i = ix3 p' t' d' := ⟨i 0, i 1, i 2, eq_ix3 i⟩
      have h0 : ¬ n % 4 = 0 := by omega
      unfold Cert.KernelIdeal.Value.scAt0_0
      rw [dif_neg h0]
      by_cases h1 : n % 4 = 3
      · rw [dif_pos h1, acc_last]
        exact acc_step (iblk m c 1 ⟨n, h⟩) (iblk m c 0 ⟨n, h⟩) acc (vals m c) (bins m c) n p' t' d'
          (fun l => bblk m c ⟨n, h⟩ p' l) (fun l => vblk m c ⟨n, h⟩ p' l d')
      · rw [dif_neg h1, acc_mid]
        exact acc_step (iblk m c 1 ⟨n, h⟩) (iblk m c 0 ⟨n, h⟩) acc (vals m c) (bins m c) n p' t' d'
          (fun l => bblk m c ⟨n, h⟩ p' l) (fun l => vblk m c ⟨n, h⟩ p' l d'))
    (t.val % 4) (by omega) hb (ix3 p tt d)
  rw [Cert.KernelIdeal.Value.soutsAt0_0_eq m c t]
  refine key.trans ?_
  rw [h3, zero_add]
  show ∑ s ∈ Finset.range (3 + 1), chunkSum (vals m c) (bins m c) (4 * (t.val / 4) + s) p tt d = _
  rw [chunkSum_total, rowOf_base]

/-- … and the counts' accumulator holds, at (p, t), the whole row's bin count. -/
theorem cnt_at_last (c : Dev nD) (t : Fin cfg0.N) (h3 : t.val % 4 = 3) (p : Fin 32) (tt : Fin 48) :
    (outsAt0 m c t.val t.isLt).2.2 (ix2 p tt) = binCount (bins m c) (rowOf t.val p) tt := by
  have hN : t.val < 32 := lt_of_lt_of_eq t.isLt N_0
  have hb : 4 * (t.val / 4) + t.val % 4 < cfg0.N := by have h2 := Nat.div_add_mod t.val 4; have h1 := t.isLt; omega
  have key := Pipeline.accAt_add_apply (N := cfg0.N) (ι := S32x48.Idx) (β := EReal)
    (fun n h => Cert.KernelIdeal.Value.scAt0_1 m c n h (VS0_1.read (Elt Ideal) VS0_1.junk)) (Cert.KernelIdeal.Value.scAt0_1 m c)
    (fun _ => 0) (fun n i => chunkCount (bins m c) n (i 0) (i 1)) (4 * (t.val / 4)) 3
    (by
      intro h i
      obtain ⟨p', t', rfl⟩ : ∃ (p' : Fin 32) (t' : Fin 48), i = ix2 p' t' := ⟨i 0, i 1, eq_ix2 i⟩
      have h0 : (4 * (t.val / 4)) % 4 = 0 := by omega
      have h1 : ¬ (4 * (t.val / 4)) % 4 = 3 := by omega
      unfold Cert.KernelIdeal.Value.scAt0_1
      rw [dif_pos h0, dif_neg h1, cnt_first]
      refine (cnt_step (iblk m c 1 ⟨4 * (t.val / 4), h⟩) (k0_pay2 (F := Ideal)) (bins m c) (4 * (t.val / 4)) p' t'
        (fun l => bblk m c ⟨4 * (t.val / 4), h⟩ p' l)).trans ?_
      rw [pay2_apply])
    (by
      intro n h acc i hlo hhi
      obtain ⟨p', t', rfl⟩ : ∃ (p' : Fin 32) (t' : Fin 48), i = ix2 p' t' := ⟨i 0, i 1, eq_ix2 i⟩
      have h0 : ¬ n % 4 = 0 := by omega
      unfold Cert.KernelIdeal.Value.scAt0_1
      rw [dif_neg h0]
      by_cases h1 : n % 4 = 3
      · rw [dif_pos h1, cnt_last]
        exact cnt_step (iblk m c 1 ⟨n, h⟩) acc (bins m c) n p' t' (fun l => bblk m c ⟨n, h⟩ p' l)
      · rw [dif_neg h1, cnt_mid]
        exact cnt_step (iblk m c 1 ⟨n, h⟩) acc (bins m c) n p' t' (fun l => bblk m c ⟨n, h⟩ p' l))
    (t.val % 4) (by omega) hb (ix2 p tt)
  rw [Cert.KernelIdeal.Value.soutsAt0_1_eq m c t]
  refine key.trans ?_
  rw [h3, zero_add]
  show ∑ s ∈ Finset.range (3 + 1), chunkCount (bins m c) (4 * (t.val / 4) + s) p tt = _
  rw [chunkCount_total, rowOf_base]

/-! ## The output block, and the array after the run -/

/-- At the last chunk of a row block the output block is the quotient of the two accumulators as they stand after it. -/
theorem out_at_last (c : Dev nD) (t : Fin cfg0.N) (h0 : ¬ t.val % 4 = 0) (h1 : t.val % 4 = 3) :
    (outsAt0 m c t.val t.isLt).1 = k0_pay6 (F := Ideal) ((outsAt0 m c t.val t.isLt).2.2) ((outsAt0 m c t.val t.isLt).2.1) := by
  rw [outsAt0_C m c t h0 h1]
  dsimp only
  rw [out_last, acc_last, cnt_last]

/-- The output window is never clipped: what a write-back writes of a block's contents is those contents. -/
theorem cut_out (t : Fin cfg0.N) (X : Vec Ideal S32x48x128 .f32) (j : S32x48x128.Idx) :
    (cfg0.win 2).cut (grid0.coords t) X j = X j := rfl

/-- What a writing point writes back is its block of the binned average of the two arrays the launch found. -/
theorem flushed_eq (c : Dev nD) (t : Fin cfg0.N) (hf : (cfg0.win 2).flush t = true) :
    (dats m 0 c).flushed 2 t = ((cfg0.win 2).blk t).view.read (Elt Ideal) (hist (vals m c) (bins m c)) := by
  have h3 : t.val % 4 = 3 := (flush0_2 t).mp hf
  have h0 : ¬ t.val % 4 = 0 := by omega
  rw [Cert.KernelIdeal.Value.flushed2 m c t, out_at_last m c t h0 h3]
  funext j
  obtain ⟨p, tt, d, rfl⟩ : ∃ (p : Fin 32) (tt : Fin 48) (d : Fin 128), j = ix3 p tt d := ⟨j 0, j 1, j 2, eq_ix3 j⟩
  refine (cut_out t (k0_pay6 (F := Ideal) ((outsAt0 m c t.val t.isLt).2.2) ((outsAt0 m c t.val t.isLt).2.1)) (ix3 p tt d)).trans ?_
  rw [View.read_apply, oblk_emb t p tt d, hist_apply, pay6_apply ((outsAt0 m c t.val t.isLt).2.2) ((outsAt0 m c t.val t.isLt).2.1) p tt d,
    acc_at_last m c t h3 p tt d, cnt_at_last m c t h3 p tt]
  rfl

/-- The writing points' blocks tile the result array, so it ends holding the binned average. -/
theorem final (c : Dev nD) : (dats m 0 c).arrAt 2 cfg0.N = hist (vals m c) (bins m c) :=
  (dats m 0 c).arrAt_eq_of_cover 2 (hist (vals m c) (bins m c)) (fun t hf => flushed_eq m c t hf) cover

/-- The kernel's run: the result array at the binned average of the event stream and bin words its launch found, the
    arguments unchanged. -/
theorem run : θ_run defs (onTc (τ := τ) (main (F := Ideal))) ⟨m, fun _ => 0, ρ⟩ fun r => ∀ c : Dev nD,
      r.2.mem ((c : Thread nD τ).loc main_v25) = hist (vals m c) (bins m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.HistValue

end
-- ==== Proof.LibRowGatherScatter.lean ====
/- Rows gathered and rows scattered, read at an index. A gather of whole rows of an [N, C] array at an [E, 1] table
   of row numbers gives an [E, C] array whose row e is the row the table names, the number read signed and clamped
   into [0, N - 1]. A scatter of the rows of an [E, C] array into an [N, C] array by addition, at an [E, 1] table of
   row numbers, adds row e to the row the table names, the number read signed and NOT clamped: a row whose number
   falls outside [0, N) is dropped. At the ideal values the scattered array at (n, c) is therefore the operand's
   entry plus the sum, over the rows e that land on n, of the update's entry (e, c). Stated over abstract sizes. -/
import Idealize.ShloMosaic.Lib.ValueIdx
import Idealize.ShloMosaic.PureOps.Ideal.Laws

noncomputable section

open scoped BigOperators

namespace Cert.Lib.RowGatherScatter

open Idealize.ShloMosaic Idealize.ShloMosaic.ValueIdx

variable {N E C w : Nat}

/-! ## The gather of rows -/

/-- The dimension numbers of a gather of whole rows: axis 0 collapsed and named by the one-component start index,
    axis 1 the offset axis, a slice one row long. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT (e, c): the operand at the row the table names for e, same column. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherPos hN idx e) c) := by
  unfold Host.gather
  congr 1
  funext a
  refine Fin.ext ?_
  match a with
  | ⟨0, _⟩ =>
    show (rowGatherDims N E C wf).start (ix2 e c) idx (0 : Fin 2) + (rowGatherDims N E C wf).batchCoord (ix2 e c) (0 : Fin 2)
      + (rowGatherDims N E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx (1 : Fin 2) + (rowGatherDims N E C wf).batchCoord (ix2 e c) (1 : Fin 2)
      + (rowGatherDims N E C wf).offCoord (ix2 e c) (1 : Fin 2) = c.val
    have hs : (rowGatherDims N E C wf).start (ix2 e c) idx (1 : Fin 2) = 0 := by
      unfold GatherDims.start
      rw [dif_neg (show (1 : Fin 2) ∉ (rowGatherDims N E C wf).startIndexMap from
        fun h => absurd (List.mem_singleton.mp h) (show ¬ ((1 : Fin 2) = 0) by decide))]
    have hk : (1 : Fin 2) ∈ (rowGatherDims N E C wf).sKept :=
      (GatherDims.mem_sKept _ _).mpr ⟨fun h => absurd (List.mem_singleton.mp h) (show ¬ ((1 : Fin 2) = 0) by decide), List.not_mem_nil⟩
    have ho : (rowGatherDims N E C wf).offCoord (ix2 e c) (1 : Fin 2) = c.val := by
      unfold GatherDims.offCoord
      rw [dif_pos hk]
      rfl
    rw [hs, GatherDims.batchCoord_eq_zero _ _ _ List.not_mem_nil, ho]
    omega

/-! ## The scatter of rows by addition -/

/-- The dimension numbers of a scatter of whole rows: the operand's axis 0 inserted and named by the one-component
    scatter index, the update's axis 1 its window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row that update row e lands on: the table's entry e as a signed integer when it lies in [0, N), no row
    otherwise (the update row is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry (e, c) lands on operand entry (n, c') exactly when the table sends e to n and c = c'. -/
theorem resultIdx_rows (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c') ↔ (landPos N idx e = some n ∧ c = c') := by
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (rowScatterDims N E C wf).start (ix2 e c) idx (0 : Fin 2) = (idx (ix2 e (0 : Fin 1))).toInt := by
    unfold ScatterDims.start
    rw [dif_pos (show (0 : Fin 2) ∈ (rowScatterDims N E C wf).scatterDimsToOperandDims from List.mem_singleton.mpr rfl), hsi]
  have s1 : (rowScatterDims N E C wf).start (ix2 e c) idx (1 : Fin 2) = 0 := by
    unfold ScatterDims.start
    rw [dif_neg (show (1 : Fin 2) ∉ (rowScatterDims N E C wf).scatterDimsToOperandDims from
      fun h => absurd (List.mem_singleton.mp h) (show ¬ ((1 : Fin 2) = 0) by decide))]
  have k0 : (0 : Fin 2) ∉ (rowScatterDims N E C wf).sKept := by
    simp [ScatterDims.sKept, Shape.kept, List.mem_filter]
  have k1 : (1 : Fin 2) ∈ (rowScatterDims N E C wf).sKept := by
    refine List.mem_filter.mpr ⟨List.mem_finRange _, ?_⟩
    simpa using (show ¬ ((1 : Fin 2) = 0) by decide)
  have w0 : (rowScatterDims N E C wf).window (ix2 e c) (0 : Fin 2) = 0 := by
    unfold ScatterDims.window
    rw [dif_neg k0]
  have w1 : (rowScatterDims N E C wf).window (ix2 e c) (1 : Fin 2) = c.val := by
    unfold ScatterDims.window
    rw [dif_pos k1]
    rfl
  have hc := c.isLt
  unfold ScatterDims.resultIdx? landPos
  by_cases hl : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro a
      match a with
      | ⟨0, _⟩ =>
        show 0 ≤ (rowScatterDims N E C wf).start (ix2 e c) idx (0 : Fin 2) + ((rowScatterDims N E C wf).window (ix2 e c) (0 : Fin 2) : Int)
          ∧ (rowScatterDims N E C wf).start (ix2 e c) idx (0 : Fin 2) + ((rowScatterDims N E C wf).window (ix2 e c) (0 : Fin 2) : Int) < (N : Int)
        rw [s0, w0]; omega
      | ⟨1, _⟩ =>
        show 0 ≤ (rowScatterDims N E C wf).start (ix2 e c) idx (1 : Fin 2) + ((rowScatterDims N E C wf).window (ix2 e c) (1 : Fin 2) : Int)
          ∧ (rowScatterDims N E C wf).start (ix2 e c) idx (1 : Fin 2) + ((rowScatterDims N E C wf).window (ix2 e c) (1 : Fin 2) : Int) < (C : Int)
        rw [s1, w1]; omega
    rw [dif_pos hall, dif_pos hl]
    simp only [Option.some.injEq]
    constructor
    · intro h
      have e0 := congrArg (fun i => (i (0 : Fin 2)).val) h
      have e1 := congrArg (fun i => (i (1 : Fin 2)).val) h
      simp only at e0 e1
      have e0' : ((rowScatterDims N E C wf).start (ix2 e c) idx (0 : Fin 2) + ((rowScatterDims N E C wf).window (ix2 e c) (0 : Fin 2) : Int)).toNat = n.val := e0
      have e1' : ((rowScatterDims N E C wf).start (ix2 e c) idx (1 : Fin 2) + ((rowScatterDims N E C wf).window (ix2 e c) (1 : Fin 2) : Int)).toNat = c'.val := e1
      rw [s0, w0] at e0'
      rw [s1, w1] at e1'
      exact ⟨Fin.ext (by simp only; omega), Fin.ext (by omega)⟩
    · rintro ⟨hn, rfl⟩
      have hn' : (idx (ix2 e (0 : Fin 1))).toInt.toNat = n.val := congrArg Fin.val hn
      funext a; refine Fin.ext ?_
      match a with
      | ⟨0, _⟩ =>
        show ((rowScatterDims N E C wf).start (ix2 e c) idx (0 : Fin 2) + ((rowScatterDims N E C wf).window (ix2 e c) (0 : Fin 2) : Int)).toNat = n.val
        rw [s0, w0]; omega
      | ⟨1, _⟩ =>
        show ((rowScatterDims N E C wf).start (ix2 e c) idx (1 : Fin 2) + ((rowScatterDims N E C wf).window (ix2 e c) (1 : Fin 2) : Int)).toNat = c.val
        rw [s1, w1]; omega
  · have hnot : ¬ ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro h
      have h0 := h (0 : Fin 2)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT (n, c), at the ideal values: the operand's entry plus the sum, over the update
    rows that land on n, of the update's entry in column c. -/
theorem scatterAdd_rows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N E C wf) x idx upd (ix2 n c)
      = x (ix2 n c) + ∑ e ∈ Finset.univ.filter (fun e : Fin E => landPos N idx e = some n), upd (ix2 e c) := by
  unfold Ideal.hostScatterAdd
  congr 1
  rw [Finset.sum_filter, sum_idx2, Finset.sum_filter]
  refine Finset.sum_congr rfl fun e _ => ?_
  by_cases hL : landPos N idx e = some n
  · simp [resultIdx_rows, hL]
  · simp [resultIdx_rows, hL]

/-- The same, stated of the host operation's own spelling (at the ideal values it is that exact sum). -/
theorem host_scatterAdd_rows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = x (ix2 n c) + ∑ e ∈ Finset.univ.filter (fun e : Fin E => landPos N idx e = some n), upd (ix2 e c) :=
  scatterAdd_rows_apply wf x idx upd n c

end Cert.Lib.RowGatherScatter

end
-- ==== Proof.LibVectorGatherScatter.lean ====
/- A vector gathered and a vector scattered, read at an index. A gather of single entries of an [N] array at an
   [E, 1] table of positions gives an [E] array whose entry e is the entry the table names, the number read signed
   and clamped into [0, N - 1]. A scatter of the entries of an [E] array into an [N] array by addition, at an [E, 1]
   table of positions, adds entry e to the position the table names, the number read signed and NOT clamped: an
   entry whose position falls outside [0, N) is dropped. At the ideal values the scattered array at n is therefore
   the operand's entry plus the sum over the entries e that land on n of the update's entry e. Stated over abstract
   sizes. -/
import Idealize.ShloMosaic.Lib.ValueIdx
import Idealize.ShloMosaic.PureOps.Ideal.Laws

noncomputable section

open scoped BigOperators

namespace Cert.Lib.VectorGatherScatter

open Idealize.ShloMosaic Idealize.ShloMosaic.ValueIdx

variable {N E w : Nat}

/-! ## A one-axis index set is its one coordinate range -/

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over the index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of entries -/

/-- The dimension numbers of a gather of single entries of a vector: the one axis collapsed and named by the
    one-component start index, no offset axis, a slice one entry long. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position that result entry e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT e: the operand at the position the table names for e. -/
theorem gather_vec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A table entry that already lies in [0, N) is its own clamped position. -/
theorem gatherPos_val_of_inRange (hN : 0 < N) (idx : IVec ⟨2, ![E, 1]⟩ w) (e : Fin E)
    (h0 : 0 ≤ (idx (ix2 e (0 : Fin 1))).toInt) (h1 : (idx (ix2 e (0 : Fin 1))).toInt < (N : Int)) :
    (gatherPos hN idx e).val = (idx (ix2 e (0 : Fin 1))).toInt.toNat := by
  show min (idx (ix2 e (0 : Fin 1))).toInt.toNat (N - 1) = _
  omega

/-- THE GATHER READ AT e WHEN THE TABLE'S ENTRY LIES IN [0, N): the operand at that very position. -/
theorem gather_vec_apply_of_inRange {α : Type}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E)
    (h0 : 0 ≤ (idx (ix2 e (0 : Fin 1))).toInt) (h1 : (idx (ix2 e (0 : Fin 1))).toInt < (N : Int)) :
    Host.gather (vecGatherDims N E wf) x idx (ix1 e)
      = x (ix1 ⟨(idx (ix2 e (0 : Fin 1))).toInt.toNat, by omega⟩) := by
  have hN : 0 < N := by omega
  rw [gather_vec_apply hN wf x idx e]
  congr 2
  exact Fin.ext (gatherPos_val_of_inRange hN idx e h0 h1)

/-! ## The scatter of entries by addition -/

/-- The dimension numbers of a scatter of single entries into a vector: the operand's one axis inserted and named by
    the one-component scatter index, the update without window axes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The position that update entry e lands on: the table's entry e as a signed integer when it lies in [0, N), no
    position otherwise (the update entry is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry e lands on operand entry n exactly when the table sends e to n. -/
theorem resultIdx_vec (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ landPos N idx e = some n := by
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl), hsi]
  have k0 : (0 : Fin 1) ∉ (vecScatterDims N E wf).sKept := by
    simp [ScatterDims.sKept, Shape.kept, List.mem_filter]
  have w0 : (vecScatterDims N E wf).window (ix1 e) (0 : Fin 1) = 0 := by
    unfold ScatterDims.window
    rw [dif_neg k0]
  unfold ScatterDims.resultIdx? landPos
  by_cases hl : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro a
      obtain rfl : a = 0 := Subsingleton.elim _ _
      show 0 ≤ (vecScatterDims N E wf).start (ix1 e) idx (0 : Fin 1) + ((vecScatterDims N E wf).window (ix1 e) (0 : Fin 1) : Int)
        ∧ (vecScatterDims N E wf).start (ix1 e) idx (0 : Fin 1) + ((vecScatterDims N E wf).window (ix1 e) (0 : Fin 1) : Int) < (N : Int)
      rw [s0, w0]; omega
    rw [dif_pos hall, dif_pos hl]
    simp only [Option.some.injEq]
    constructor
    · intro h
      have e0 := congrArg (fun i => (i (0 : Fin 1)).val) h
      simp only at e0
      have e0' : ((vecScatterDims N E wf).start (ix1 e) idx (0 : Fin 1) + ((vecScatterDims N E wf).window (ix1 e) (0 : Fin 1) : Int)).toNat = n.val := e0
      rw [s0, w0] at e0'
      exact Fin.ext (by simp only; omega)
    · intro hn
      have hn' : (idx (ix2 e (0 : Fin 1))).toInt.toNat = n.val := congrArg Fin.val hn
      funext a; refine Fin.ext ?_
      obtain rfl : a = 0 := Subsingleton.elim _ _
      show ((vecScatterDims N E wf).start (ix1 e) idx (0 : Fin 1) + ((vecScatterDims N E wf).window (ix1 e) (0 : Fin 1) : Int)).toNat = n.val
      rw [s0, w0]; omega
  · have hnot : ¬ ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro h
      have h0 := h (0 : Fin 1)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT n, at the ideal values: the operand's entry plus the sum, over the update
    entries that land on n, of the update's entry. -/
theorem scatterAdd_vec_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => landPos N idx e = some n), upd (ix1 e) := by
  unfold Ideal.hostScatterAdd
  congr 1
  rw [Finset.sum_filter, sum_idx1, Finset.sum_filter]
  refine Finset.sum_congr rfl fun e _ => ?_
  by_cases hL : landPos N idx e = some n
  · simp [resultIdx_vec, hL]
  · simp [resultIdx_vec, hL]

/-- The same, stated of the host operation's own spelling (at the ideal values it is that exact sum). -/
theorem host_scatterAdd_vec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => landPos N idx e = some n), upd (ix1 e) :=
  scatterAdd_vec_apply wf x idx upd n

end Cert.Lib.VectorGatherScatter

end
-- ==== Proof.SegmentSum.lean ====
/- Sums over segments. A table of keys over E = B * L positions, read in rows of length L, whose entry at position
   b * L + l is the number b * T + k(b, l) with a digit 0 ≤ k(b, l) < T, sends position (b, l) to the key
   b' * T + t exactly when b = b' and k(b, l) = t: the leading part of a number written in base T is determined by
   the number. So the sum of a family over the positions whose key is b * T + t is the sum, over the row b alone,
   of the entries whose digit is t. Also: the 32-bit word arithmetic that forms such a key does not wrap when the
   row number is below 256 and the digit is between 0 and 47, and a word clamped between 0 and 47 (signed) is
   such a digit. -/
import Idealize.ShloMosaic.Lib.ValueIdx

open scoped BigOperators

namespace Cert.SegmentSum

open Idealize.ShloMosaic

/-- Two numbers a' * T + k' and a * T + k with digits 0 ≤ k, k' < T are equal only when a' = a. -/
theorem lead_eq_of_eq {T a a' k k' : ℤ} (hk : 0 ≤ k) (hkT : k < T) (hk' : 0 ≤ k') (hkT' : k' < T)
    (h : a' * T + k' = a * T + k) : a' = a := by
  have hT : (0 : ℤ) ≤ T := by omega
  rcases lt_trichotomy a' a with hlt | heq | hgt
  · exfalso
    have h1 : (a' + 1) * T ≤ a * T := mul_le_mul_of_nonneg_right (by omega) hT
    linarith
  · exact heq
  · exfalso
    have h1 : (a + 1) * T ≤ a' * T := mul_le_mul_of_nonneg_right (by omega) hT
    linarith

/-- THE SEGMENT SUM. Positions e < E = B * L are read as pairs (b, l) with e = b * L + l. If position (b, l) carries
    the key b * T + k(b, l) with 0 ≤ k(b, l) < T and the summand g(b, l), then the sum over the positions selected
    by "the key is b * T + t" is the sum over l of g(b, l) where k(b, l) = t, and 0 elsewhere. The selection p and
    the condition q are any propositions equivalent to those two. -/
theorem sum_filter_key {M : Type*} [AddCommMonoid M] {B L T E : ℕ} (hE : E = B * L)
    (key : Fin E → ℤ) (kb : Fin B → Fin L → ℤ) (f : Fin E → M) (g : Fin B → Fin L → M)
    (hkey : ∀ (e : Fin E) (b : Fin B) (l : Fin L), e.val = b.val * L + l.val → key e = (b.val : ℤ) * (T : ℤ) + kb b l)
    (hk : ∀ b l, 0 ≤ kb b l ∧ kb b l < (T : ℤ))
    (hf : ∀ (e : Fin E) (b : Fin B) (l : Fin L), e.val = b.val * L + l.val → f e = g b l)
    (b : Fin B) (t : Fin T)
    (p : Fin E → Prop) [DecidablePred p] (hp : ∀ e, p e ↔ key e = (b.val : ℤ) * (T : ℤ) + (t.val : ℤ))
    (q : Fin L → Prop) [DecidablePred q] (hq : ∀ l, q l ↔ kb b l = (t.val : ℤ)) :
    ∑ e ∈ Finset.univ.filter p, f e = ∑ l : Fin L, if q l then g b l else 0 := by
  subst hE
  have hv : ∀ (b' : Fin B) (l : Fin L), (finProdFinEquiv (b', l)).val = b'.val * L + l.val := by
    intro b' l
    rw [finProdFinEquiv_apply_val]
    show l.val + L * b'.val = b'.val * L + l.val
    rw [Nat.mul_comm, Nat.add_comm]
  rw [Finset.sum_filter, ← Equiv.sum_comp finProdFinEquiv, Fintype.sum_prod_type, Finset.sum_eq_single b]
  · refine Finset.sum_congr rfl fun l _ => ?_
    rw [hf _ b l (hv b l)]
    refine if_congr ?_ rfl rfl
    rw [hp, hq, hkey _ b l (hv b l)]
    exact add_right_inj _
  · intro b' _ hb'
    refine Finset.sum_eq_zero fun l _ => ?_
    rw [if_neg]
    rw [hp, hkey _ b' l (hv b' l)]
    intro h
    have ht : ((t.val : ℕ) : ℤ) < (T : ℤ) := by exact_mod_cast t.isLt
    have h2 := lead_eq_of_eq (T := (T : ℤ)) (Int.natCast_nonneg _) ht (hk b' l).1 (hk b' l).2 h
    exact hb' (Fin.ext (by exact_mod_cast h2))
  · intro h
    exact absurd (Finset.mem_univ b) h

/-- The key word of row r and digit word w, formed in 32-bit arithmetic as r * 48 + w, read signed is the number
    r * 48 + w: nothing wraps when r < 256 and 0 ≤ w ≤ 47. -/
theorem toInt_key (r : ℕ) (hr : r < 256) (w : BitVec 32) (h0 : 0 ≤ w.toInt) (h1 : w.toInt ≤ 47) :
    (BitVec.ofNat 32 r * 48#32 + w).toInt = (r : ℤ) * 48 + w.toInt := by
  have hw := BitVec.toInt_eq_toNat_cond w
  have hs := BitVec.toInt_eq_toNat_cond (BitVec.ofNat 32 r * 48#32 + w)
  have hn : (BitVec.ofNat 32 r * 48#32 + w).toNat = (r % 2 ^ 32 * 48 % 2 ^ 32 + w.toNat) % 2 ^ 32 := by
    simp [BitVec.toNat_add, BitVec.toNat_mul, BitVec.toNat_ofNat]
  have hlt := w.isLt
  split_ifs at hw hs <;> omega

/-- A word clamped from below by 0 and from above by 47, both signed, lies between 0 and 47. -/
theorem clip_bounds (v : BitVec 32) :
    0 ≤ (IntOp.minsi 47#32 (IntOp.maxsi 0#32 v)).toInt ∧ (IntOp.minsi 47#32 (IntOp.maxsi 0#32 v)).toInt ≤ 47 := by
  have e47 : (47#32 : BitVec 32).toInt = 47 := by decide
  have e0 : (0#32 : BitVec 32).toInt = 0 := by decide
  unfold IntOp.minsi IntOp.maxsi
  by_cases h1 : v.slt 0#32
  · rw [if_pos h1]
    have h2 : (47#32 : BitVec 32).slt 0#32 = false := by decide
    rw [h2]
    simp only [Bool.false_eq_true, if_false]
    rw [e0]; omega
  · rw [if_neg h1]
    have h1' : ¬ v.toInt < (0#32 : BitVec 32).toInt := by
      intro h; exact h1 (BitVec.slt_iff_toInt_lt.mpr h)
    rw [e0] at h1'
    by_cases h3 : (47#32 : BitVec 32).slt v
    · rw [if_pos h3, e47]; omega
    · rw [if_neg h3]
      have h3' : ¬ (47#32 : BitVec 32).toInt < v.toInt := by
        intro h; exact h3 (BitVec.slt_iff_toInt_lt.mpr h)
      rw [e47] at h3'
      omega

/-- A word between 0 and 47 is the word of the number t < 48 exactly when it reads, signed, as t. -/
theorem toInt_eq_iff_eq_ofNat (w : BitVec 32) (t : ℕ) (ht : t < 48) :
    w = BitVec.ofNat 32 t ↔ w.toInt = (t : ℤ) := by
  have hm : t % 2 ^ 32 = t := Nat.mod_eq_of_lt (by omega)
  have h2 : 2 * (BitVec.ofNat 32 t).toNat < 2 ^ 32 := by
    rw [BitVec.toNat_ofNat, hm]; omega
  have ht' : (BitVec.ofNat 32 t).toInt = (t : ℤ) := by
    rw [BitVec.toInt_eq_toNat_of_lt h2, BitVec.toNat_ofNat, hm]
  constructor
  · intro h; rw [h, ht']
  · intro h; exact BitVec.eq_of_toInt_eq (by rw [h, ht'])

end Cert.SegmentSum
-- ==== Proof.RefHist.lean ====
/- The reference's binned average is the function hist of its own event stream and bin table.
   The reference flattens the 256 x 2048 events to 524288 rows, gives event (b, l) the segment number
   b * 48 + bins(b, l), adds the rows of the event stream into 12288 segments and ones into 12288 counters, divides,
   and reads segment b * 48 + t back as entry (b, t). The bin word is clamped to [0, 47], so the segment number does
   not wrap and determines b and the bin: the events that land on segment b * 48 + t are the events of row b whose
   bin word is t. Hence each sum over the landing events is the sum over the events of row b in bin t. -/
import proofs.«143032_j68109591380517_1_alg».proof.Proof.Gen.ReferenceIdeal.Read
import proofs.«143032_j68109591380517_1_alg».proof.Proof.Spec
import proofs.«143032_j68109591380517_1_alg».proof.Proof.LibRowGatherScatter
import proofs.«143032_j68109591380517_1_alg».proof.Proof.LibVectorGatherScatter
import proofs.«143032_j68109591380517_1_alg».proof.Proof.SegmentSum
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The two scatters' dimension numbers are the general ones -/

theorem rows_dims :
    (scatter_S12288x128_S524288x1_S524288x128_1_0_0_1 : ScatterDims S12288x128 S524288x1 S524288x128)
      = Cert.Lib.RowGatherScatter.rowScatterDims 12288 524288 128 Facts₀.scatter_S12288x128_S524288x1_S524288x128_1_0_0_1_wf := rfl

theorem vec_dims :
    (scatter_S12288_S524288x1_S524288_n_0_0_1 : ScatterDims S12288 S524288x1 S524288)
      = Cert.Lib.VectorGatherScatter.vecScatterDims 12288 524288 Facts₀.scatter_S12288_S524288x1_S524288_n_0_0_1_wf := rfl

/-! ## Landing on a segment, as an equation between numbers -/

theorem landPos_rows_iff {N E w : Nat} (idx : IVec ⟨2, ![E, 1]⟩ w) (e : Fin E) (n : Fin N) :
    Cert.Lib.RowGatherScatter.landPos N idx e = some n ↔ (idx (ix2 e (0 : Fin 1))).toInt = (n.val : ℤ) := by
  have hn := n.isLt
  unfold Cert.Lib.RowGatherScatter.landPos
  split_ifs with h
  · rw [Option.some.injEq, Fin.ext_iff]
    show (idx (ix2 e (0 : Fin 1))).toInt.toNat = n.val ↔ _
    omega
  · constructor
    · intro h'; exact absurd h' (by simp)
    · intro h'; exact absurd (by omega) h

theorem landPos_vec_iff {N E w : Nat} (idx : IVec ⟨2, ![E, 1]⟩ w) (e : Fin E) (n : Fin N) :
    Cert.Lib.VectorGatherScatter.landPos N idx e = some n ↔ (idx (ix2 e (0 : Fin 1))).toInt = (n.val : ℤ) := by
  have hn := n.isLt
  unfold Cert.Lib.VectorGatherScatter.landPos
  split_ifs with h
  · rw [Option.some.injEq, Fin.ext_iff]
    show (idx (ix2 e (0 : Fin 1))).toInt.toNat = n.val ↔ _
    omega
  · constructor
    · intro h'; exact absurd h' (by simp)
    · intro h'; exact absurd (by omega) h

/-! ## The bin table and the segment table -/

/-- The bin word is clamped: read signed it lies between 0 and 47. -/
theorem bins_bounds (x0 : (⟨S256x2048x2, .f32⟩ : BufTy).Contents (Elt Ideal)) (j : S256x2048.Idx) :
    0 ≤ (Read.val_main_v25 (F := Ideal) x0 j).toInt ∧ (Read.val_main_v25 (F := Ideal) x0 j).toInt ≤ 47 := by
  rw [Read.val_main_v25_apply, Read.val_main_call0_v4_apply, Read.val_main_call0_v3_apply, Read.val_main_c_4_apply,
    Read.val_main_call0_v2_apply, Read.val_main_call0_v1_apply, Read.val_main_call0_v0_apply, Read.val_main_c_3_apply]
  exact Cert.SegmentSum.clip_bounds _

/-- The flattened segment table at position b * 2048 + l is the word b * 48 + bins(b, l). -/
theorem seg_entry (x0 : (⟨S256x2048x2, .f32⟩ : BufTy).Contents (Elt Ideal)) (e : Fin 524288) (b : Fin 256) (l : Fin 2048)
    (h : e.val = b.val * 2048 + l.val) :
    Read.val_main_v32 (F := Ideal) x0 (ix1 e)
      = BitVec.ofNat 32 b.val * 48#32 + Read.val_main_v25 (F := Ideal) x0 (ix2 b l) := by
  have hl := l.isLt
  have hidx : Read.idx_main_v32 (ix1 e) = ix2 b l := by
    funext a
    match a with
    | ⟨0, _⟩ => exact Fin.ext (show e.val / 2048 = b.val by omega)
    | ⟨1, _⟩ => exact Fin.ext (show e.val % 2048 = l.val by omega)
  rw [Read.val_main_v32_apply, hidx, Read.val_main_v31_apply, Read.val_main_v30_apply, Read.val_main_v29_apply,
    Read.val_main_v27_apply, Read.val_main_v26_apply, Read.val_main_v28_apply, Read.val_main_c_5_apply]
  rfl

/-- Read signed, that word is the number b * 48 + bins(b, l). -/
theorem seg_entry_toInt (x0 : (⟨S256x2048x2, .f32⟩ : BufTy).Contents (Elt Ideal)) (e : Fin 524288) (b : Fin 256) (l : Fin 2048)
    (h : e.val = b.val * 2048 + l.val) :
    (Read.val_main_v32 (F := Ideal) x0 (ix1 e)).toInt
      = (b.val : ℤ) * ((48 : ℕ) : ℤ) + (Read.val_main_v25 (F := Ideal) x0 (ix2 b l)).toInt := by
  have hb := bins_bounds x0 (ix2 b l)
  rw [seg_entry x0 e b l h, Cert.SegmentSum.toInt_key b.val b.isLt _ hb.1 hb.2]
  push_cast
  rfl

/-- The two index tables the scatters take are the flattened segment table as a column. -/
theorem v34_entry (x0 : (⟨S256x2048x2, .f32⟩ : BufTy).Contents (Elt Ideal)) (e : Fin 524288) :
    Read.val_main_v34 (F := Ideal) x0 (ix2 e (0 : Fin 1)) = Read.val_main_v32 (F := Ideal) x0 (ix1 e) := by
  rw [Read.val_main_v34_apply]
  refine congrArg _ ?_
  funext a
  match a with
  | ⟨0, _⟩ => rfl

theorem v38_entry (x0 : (⟨S256x2048x2, .f32⟩ : BufTy).Contents (Elt Ideal)) (e : Fin 524288) :
    Read.val_main_v38 (F := Ideal) x0 (ix2 e (0 : Fin 1)) = Read.val_main_v32 (F := Ideal) x0 (ix1 e) := by
  rw [Read.val_main_v38_apply]
  refine congrArg _ ?_
  funext a
  match a with
  | ⟨0, _⟩ => rfl

/-- The flattened event stream at row b * 2048 + l is the event (b, l). -/
theorem v22_entry (x0 : (⟨S256x2048x2, .f32⟩ : BufTy).Contents (Elt Ideal)) (x1 : (⟨S6000x128, .f32⟩ : BufTy).Contents (Elt Ideal))
    (x2 : (⟨S6001x1, .f32⟩ : BufTy).Contents (Elt Ideal)) (d : Fin 128) (e : Fin 524288) (b : Fin 256) (l : Fin 2048)
    (h : e.val = b.val * 2048 + l.val) :
    Read.val_main_v22 (F := Ideal) x0 x1 x2 (ix2 e d) = Read.val_main_v21 (F := Ideal) x0 x1 x2 (ix3 b l d) := by
  have hl := l.isLt
  have hd := d.isLt
  rw [Read.val_main_v22_apply]
  refine congrArg _ ?_
  funext a
  match a with
  | ⟨0, _⟩ => exact Fin.ext (show (e.val * 128 + d.val) / 262144 = b.val by omega)
  | ⟨1, _⟩ => exact Fin.ext (show (e.val * 128 + d.val) / 128 % 2048 = l.val by omega)
  | ⟨2, _⟩ => exact Fin.ext (show (e.val * 128 + d.val) % 128 = d.val by omega)

/-! ## The two scatters read at a segment -/

/-- The scattered sums at segment b * 48 + t, lane d: the sum over the events of row b in bin t. -/
theorem sums_apply (x0 : (⟨S256x2048x2, .f32⟩ : BufTy).Contents (Elt Ideal)) (x1 : (⟨S6000x128, .f32⟩ : BufTy).Contents (Elt Ideal))
    (x2 : (⟨S6001x1, .f32⟩ : BufTy).Contents (Elt Ideal)) (b : Fin 256) (t : Fin 48) (d : Fin 128) (n : Fin 12288)
    (hn : n.val = b.val * 48 + t.val) :
    Read.val_main_v35 (F := Ideal) x0 x1 x2 (ix2 n d)
      = Cert.Hist.binSum (Read.val_main_v21 (F := Ideal) x0 x1 x2) (Read.val_main_v25 (F := Ideal) x0) b t d := by
  unfold Read.val_main_v35
  rw [rows_dims]
  refine (Cert.Lib.RowGatherScatter.host_scatterAdd_rows_apply _ _ _ _ n d).trans ?_
  rw [Read.val_main_v33_apply, Read.val_main_cst_apply, Ideal.ofBits_def, Ideal.ofBits_zero_f32, zero_add]
  unfold Cert.Hist.binSum
  exact Cert.SegmentSum.sum_filter_key (B := 256) (L := 2048) (T := 48) (E := 524288) rfl
    (fun e => (Read.val_main_v34 (F := Ideal) x0 (ix2 e (0 : Fin 1))).toInt)
    (fun b l => (Read.val_main_v25 (F := Ideal) x0 (ix2 b l)).toInt)
    (fun e => Read.val_main_v22 (F := Ideal) x0 x1 x2 (ix2 e d))
    (fun b l => Read.val_main_v21 (F := Ideal) x0 x1 x2 (ix3 b l d))
    (fun e b l h => by rw [v34_entry x0 e]; exact seg_entry_toInt x0 e b l h)
    (fun b l => ⟨(bins_bounds x0 (ix2 b l)).1, by have := (bins_bounds x0 (ix2 b l)).2; omega⟩)
    (fun e b l h => v22_entry x0 x1 x2 d e b l h)
    b t
    (fun e => Cert.Lib.RowGatherScatter.landPos 12288 (Read.val_main_v34 (F := Ideal) x0) e = some n)
    (fun e => by rw [landPos_rows_iff, hn]; push_cast; exact Iff.rfl)
    (fun l => Read.val_main_v25 (F := Ideal) x0 (ix2 b l) = Cert.Hist.binWord t)
    (fun l => Cert.SegmentSum.toInt_eq_iff_eq_ofNat _ t.val t.isLt)

/-- The scattered counts at segment b * 48 + t: the number of events of row b in bin t. -/
theorem counts_apply (x0 : (⟨S256x2048x2, .f32⟩ : BufTy).Contents (Elt Ideal)) (b : Fin 256) (t : Fin 48) (n : Fin 12288)
    (hn : n.val = b.val * 48 + t.val) :
    Read.val_main_v39 (F := Ideal) x0 (ix1 n) = Cert.Hist.binCount (Read.val_main_v25 (F := Ideal) x0) b t := by
  unfold Read.val_main_v39
  rw [vec_dims]
  refine (Cert.Lib.VectorGatherScatter.host_scatterAdd_vec_apply _ _ _ _ n).trans ?_
  rw [Read.val_main_v37_apply, Read.val_main_cst_7_apply, Ideal.ofBits_def, Ideal.ofBits_zero_f32, zero_add]
  unfold Cert.Hist.binCount
  exact Cert.SegmentSum.sum_filter_key (B := 256) (L := 2048) (T := 48) (E := 524288) rfl
    (fun e => (Read.val_main_v38 (F := Ideal) x0 (ix2 e (0 : Fin 1))).toInt)
    (fun b l => (Read.val_main_v25 (F := Ideal) x0 (ix2 b l)).toInt)
    (fun e => Read.val_main_v36 (F := Ideal) (ix1 e))
    (fun _ _ => (1 : EReal))
    (fun e b l h => by rw [v38_entry x0 e]; exact seg_entry_toInt x0 e b l h)
    (fun b l => ⟨(bins_bounds x0 (ix2 b l)).1, by have := (bins_bounds x0 (ix2 b l)).2; omega⟩)
    (fun e b l h => by
      rw [Read.val_main_v36_apply, Read.val_main_cst_6_apply, Ideal.ofBits_def, Ideal.ofBits_one_f32])
    b t
    (fun e => Cert.Lib.VectorGatherScatter.landPos 12288 (Read.val_main_v38 (F := Ideal) x0) e = some n)
    (fun e => by rw [landPos_vec_iff, hn]; push_cast; exact Iff.rfl)
    (fun l => Read.val_main_v25 (F := Ideal) x0 (ix2 b l) = Cert.Hist.binWord t)
    (fun l => Cert.SegmentSum.toInt_eq_iff_eq_ofNat _ t.val t.isLt)

/-- The divisor at segment b * 48 + t, any lane: the count plus the small constant. -/
theorem denom_apply (x0 : (⟨S256x2048x2, .f32⟩ : BufTy).Contents (Elt Ideal)) (b : Fin 256) (t : Fin 48) (d : Fin 128) (n : Fin 12288)
    (hn : n.val = b.val * 48 + t.val) :
    Read.val_main_v43 (F := Ideal) x0 (ix2 n d)
      = Cert.Hist.binCount (Read.val_main_v25 (F := Ideal) x0) b t + Cert.Hist.eps := by
  have h43 : Read.idx_main_v43 (ix2 n d) = ix2 n (0 : Fin 1) := by
    funext a
    match a with
    | ⟨0, _⟩ => rfl
    | ⟨1, _⟩ => rfl
  have h40 : Read.idx_main_v40 (ix2 n (0 : Fin 1)) = ix1 n := by
    funext a
    match a with
    | ⟨0, _⟩ => rfl
  rw [Read.val_main_v43_apply, h43, Read.val_main_v42_apply, Read.val_main_v40_apply, h40, Read.val_main_v41_apply,
    Read.val_main_cst_8_apply, Ideal.addf_def, Ideal.ofBits_def, counts_apply x0 b t n hn]
  rfl

/-! ## The reference's result -/

theorem ref_eq_hist (x0 : (⟨S256x2048x2, .f32⟩ : BufTy).Contents (Elt Ideal)) (x1 : (⟨S6000x128, .f32⟩ : BufTy).Contents (Elt Ideal))
    (x2 : (⟨S6001x1, .f32⟩ : BufTy).Contents (Elt Ideal)) :
    Read.val_main_v45 (F := Ideal) x0 x1 x2
      = Cert.Hist.hist (Read.val_main_v21 (F := Ideal) x0 x1 x2) (Read.val_main_v25 (F := Ideal) x0) := by
  funext i
  obtain ⟨b, t, d, rfl⟩ : ∃ (b : Fin 256) (t : Fin 48) (d : Fin 128), i = ix3 b t d := ⟨i 0, i 1, i 2, eq_ix3 i⟩
  have hb := b.isLt
  have ht := t.isLt
  have hd := d.isLt
  have hlt : b.val * 48 + t.val < 12288 := by omega
  have h45 : Read.idx_main_v45 (ix3 b t d) = ix2 (⟨b.val * 48 + t.val, hlt⟩ : Fin 12288) d := by
    funext a
    match a with
    | ⟨0, _⟩ => exact Fin.ext (show ((b.val * 48 + t.val) * 128 + d.val) / 128 = b.val * 48 + t.val by omega)
    | ⟨1, _⟩ => exact Fin.ext (show ((b.val * 48 + t.val) * 128 + d.val) % 128 = d.val by omega)
  rw [Cert.Hist.hist_apply, Read.val_main_v45_apply, h45, Read.val_main_v44_apply, Ideal.hostDivf_def,
    sums_apply x0 x1 x2 b t d _ rfl, denom_apply x0 b t d _ rfl]

end Cert.ReferenceIdeal.RefValue

end
-- ==== Proof.LibTypedRefs.lean ====
/- Typed references of module-local functions: carrying a value to its buffer's type and back.
   An operation of a called function reads its operands' buffers through the value's type and writes its result back
   through it (a transport along the equation "the buffer's type is the value's type", in each direction). Whatever the
   equation's proof, the two transports undo each other. With these two facts a run read through several such
   operations loses its transports by rewriting, without the type equations ever being evaluated. Any signature, any
   values. -/
import Idealize.ShloMosaic.Lib.StableHlo

namespace Cert.Lib.TypedRefs

open Idealize.ShloMosaic Idealize.ShloMosaic.StableHlo

variable {sig : RefSig} {Val : EltTy → Type} {T : BufTy}

/-- To the buffer's type and back: the value. -/
theorem ofBuf_toBuf (x : TRef sig T) (v : T.Contents Val) : x.ofBuf (x.toBuf v) = v := by
  obtain ⟨r, h, hd, hu⟩ := x
  subst h
  rfl

/-- To the value's type and back: the buffer's contents. -/
theorem toBuf_ofBuf (x : TRef sig T) (v : x.ref.ty.Contents Val) : x.toBuf (x.ofBuf v) = v := by
  obtain ⟨r, h, hd, hu⟩ := x
  subst h
  rfl

end Cert.Lib.TypedRefs
-- ==== Proof.HostPrefix.lean ====
/- The host operations before the kernel's launch are the reference's own first operations. Both programs slice the
   times and the token ids out of X, gather the embedding rows and the weights at the (normalised) ids, multiply by
   the exponential of the weight — the event stream —, and floor, convert and clip the times into [0, 47] — the bin
   words. So the two arrays the kernel's launch finds are, as functions of the three argument arrays, the same
   terms as the reference's stages for its event stream and its clipped bins. (The clip is a called function: its
   values travel to their buffers' types and back, which cancels.) -/
import proofs.«143032_j68109591380517_1_alg».proof.Proof.Gen.KernelIdeal.Frame
import proofs.«143032_j68109591380517_1_alg».proof.Proof.Gen.ReferenceIdeal.Read
import proofs.«143032_j68109591380517_1_alg».proof.Proof.LibTypedRefs
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.HistValue

open Cert.KernelIdeal Cert.KernelIdeal.Gen

variable (m : (ℓ : Loc nD τ sig) → Buf (Elt Ideal) ℓ)

set_option maxRecDepth 8192 in
set_option maxHeartbeats 8000000 in
theorem vals_eq (c : Dev nD) :
    (V m c main_v21 : S256x2048x128.Idx → EReal)
      = Cert.ReferenceIdeal.Read.val_main_v21 (F := Ideal) (m ((c : Thread nD τ).loc main_arg0)) (m ((c : Thread nD τ).loc main_arg1)) (m ((c : Thread nD τ).loc main_arg2)) := by
  dsimp only [Gen.V]
  simp only [Gen.hostOps0, Gen.hostOps0_1, List.flatten_cons, List.flatten_nil, List.append_nil, List.cons_append, List.nil_append]
  after_results_simp
  rfl

set_option maxRecDepth 8192 in
set_option maxHeartbeats 8000000 in
theorem bins_eq (c : Dev nD) :
    (V m c main_v24 : S256x2048.Idx → BitVec 32)
      = Cert.ReferenceIdeal.Read.val_main_v25 (F := Ideal) (m ((c : Thread nD τ).loc main_arg0)) := by
  dsimp only [Gen.V]
  simp only [Gen.hostOps0, Gen.hostOps0_1, List.flatten_cons, List.flatten_nil, List.append_nil, List.cons_append, List.nil_append]
  after_results_simp
  simp only [Cert.Lib.TypedRefs.ofBuf_toBuf]
  rfl

end Cert.KernelIdeal.HistValue
end
-- ==== Proof.lean ====
/- The kernel's binned average equals the reference's, over the extended reals.
   Both programs first compute, by the same host operations, an event stream vals[256, 2048, 128] (an embedding row
   scaled by the exponential of a gathered weight) and a bin word bins[256, 2048] (the floor of a time, clipped to
   [0, 47]). The kernel then sums, per row and bin, the events of that bin with a one-hot matrix product chunk by
   chunk, counts them, and divides; the reference scatter-adds the events into 256 · 48 segments (segment
   48 · row + bin), scatter-adds ones for the counts, and divides. Both results are

       out(b, t, d) = (Σ over the events l of row b with bins(b, l) = t of vals(b, l, d)) / (#{such l} + c),

   c the f32 nearest 1e-6 on both sides: a segment id determines its row and bin because a bin lies in [0, 47], and
   the order and grouping of an extended-real sum do not matter. No finiteness is needed: an event outside a bin
   contributes 0 · x = 0 whatever x is. The ideal pass rewrote nothing, so the word-level kernel's idealization is its
   own text. -/
import proofs.«143032_j68109591380517_1_alg».proof.Defs
import proofs.«143032_j68109591380517_1_alg».proof.Proof.Gen.Kernel
import proofs.«143032_j68109591380517_1_alg».proof.Proof.Gen.Kernel.Skeleton
import proofs.«143032_j68109591380517_1_alg».proof.Proof.Gen.Kernel.Launch
import proofs.«143032_j68109591380517_1_alg».proof.Proof.Gen.Kernel.Points
import proofs.«143032_j68109591380517_1_alg».proof.Proof.Gen.Kernel.Frame
import proofs.«143032_j68109591380517_1_alg».proof.Proof.Gen.KernelIdeal
import proofs.«143032_j68109591380517_1_alg».proof.Proof.Gen.KernelIdeal.Skeleton
import proofs.«143032_j68109591380517_1_alg».proof.Proof.Gen.KernelIdeal.Launch
import proofs.«143032_j68109591380517_1_alg».proof.Proof.Gen.KernelIdeal.Points
import proofs.«143032_j68109591380517_1_alg».proof.Proof.Gen.KernelIdeal.Frame
import proofs.«143032_j68109591380517_1_alg».proof.Proof.Gen.ReferenceIdeal
import proofs.«143032_j68109591380517_1_alg».proof.Proof.Gen.KernelIdeal.Value
import proofs.«143032_j68109591380517_1_alg».proof.Proof.Gen.ReferenceIdeal.Run
import proofs.«143032_j68109591380517_1_alg».proof.Proof.Gen.ReferenceIdeal.Read
import proofs.«143032_j68109591380517_1_alg».proof.Proof.Gen.Pre_finite_inputs
import Idealize.ShloMosaic.Adequacy
import Idealize.ShloMosaic.Init

import proofs.«143032_j68109591380517_1_alg».proof.Proof.KernelHist
import proofs.«143032_j68109591380517_1_alg».proof.Proof.RefHist
import proofs.«143032_j68109591380517_1_alg».proof.Proof.HostPrefix

noncomputable section

namespace Cert.Proof

open Idealize.ShloMosaic Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both idealized programs end with the binned average of the same event stream and the same bin words. -/
theorem algebraic : Cert.algebraic_KernelIdeal_ReferenceIdeal := by
  intro m ρ m' ρ' _ hagree
  refine ⟨fun c => Cert.Hist.hist (Cert.KernelIdeal.HistValue.vals m c) (Cert.KernelIdeal.HistValue.bins m c),
    Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  show _ = Cert.Hist.hist (Cert.KernelIdeal.HistValue.vals m c) (Cert.KernelIdeal.HistValue.bins m c)
  rw [Cert.ReferenceIdeal.Read.val_main_v45_eq, Cert.ReferenceIdeal.RefValue.ref_eq_hist,
    (hagree c).1, (hagree c).2.1, (hagree c).2.2]
  unfold Cert.KernelIdeal.HistValue.vals Cert.KernelIdeal.HistValue.bins
  rw [Cert.KernelIdeal.HistValue.vals_eq m c, Cert.KernelIdeal.HistValue.bins_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
